-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v149)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v149) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S200000x64 : Shape := ⟨2, ![200000, 64]⟩
abbrev S3x200000x36 : Shape := ⟨3, ![3, 200000, 36]⟩
abbrev S500x100 : Shape := ⟨2, ![500, 100]⟩
abbrev S_ : Shape := ⟨0, ![]⟩

class Facts : Prop where
  bcast_S_S262144 : S_.BroadcastsInDim S262144 (![] : Fin 0 → Fin S262144.rank)
  reducesTo_S262144_S_d0 : S262144.ReducesTo [0] S_
  h_S_ : 0 < S_.numel
  bcast_S_S200000x64 : S_.BroadcastsInDim S200000x64 (![] : Fin 0 → Fin S200000x64.rank)
  reducesTo_S200000x64_S_d0_1 : S200000x64.ReducesTo [0, 1] S_
  bcast_S_S3x200000x36 : S_.BroadcastsInDim S3x200000x36 (![] : Fin 0 → Fin S3x200000x36.rank)
  reducesTo_S3x200000x36_S_d0_1_2 : S3x200000x36.ReducesTo [0, 1, 2] S_
  bcast_S_S500x100 : S_.BroadcastsInDim S500x100 (![] : Fin 0 → Fin S500x100.rank)
  reducesTo_S500x100_S_d0_1 : S500x100.ReducesTo [0, 1] S_

variable [Facts]

def fn_part3 {F : FTy → Type} [FloatOps F] (main_arg14 : FVec F S500x100 .f32) (main_arg15 : FVec F S500x100 .f32) (main_v48 : IVec S_ 1) (main_v49 : FVec F S3x200000x36 .f32) (main_v50 : FVec F S3x200000x36 .f32) : IVec S_ 1 :=
  let main_v51 : IVec S3x200000x36 1 := cmpf .olt main_v49 main_v50
  let main_c_19 : IVec S_ 1 := constantI S_ 1 1#1
  let main_v52 : IVec S_ 1 := (fun x v => Host.reduce IntOp.andi x v reducesTo_S3x200000x36_S_d0_1_2 h_S_) main_v51 main_c_19
  let main_v53 : IVec S_ 1 := andi main_v48 main_v52
  let main_v54 : FVec F S500x100 .f32 := Host.absf main_arg14
  let main_cst_20 : FVec F S_ .f32 := constant S_ .f32 0x7F800000#32
  let main_v55 : FVec F S500x100 .f32 := broadcastInDim S500x100 ![] bcast_S_S500x100 main_cst_20
  let main_v56 : IVec S500x100 1 := cmpf .olt main_v54 main_v55
  let main_c_21 : IVec S_ 1 := constantI S_ 1 1#1
  let main_v57 : IVec S_ 1 := (fun x v => Host.reduce IntOp.andi x v reducesTo_S500x100_S_d0_1 h_S_) main_v56 main_c_21
  let main_v58 : IVec S_ 1 := andi main_v53 main_v57
  let main_v59 : FVec F S500x100 .f32 := Host.absf main_arg15
  let main_cst_22 : FVec F S_ .f32 := constant S_ .f32 0x7F800000#32
  let main_v60 : FVec F S500x100 .f32 := broadcastInDim S500x100 ![] bcast_S_S500x100 main_cst_22
  let main_v61 : IVec S500x100 1 := cmpf .olt main_v59 main_v60
  let main_c_23 : IVec S_ 1 := constantI S_ 1 1#1
  let main_v62 : IVec S_ 1 := (fun x v => Host.reduce IntOp.andi x v reducesTo_S500x100_S_d0_1 h_S_) main_v61 main_c_23
  let main_v63 : IVec S_ 1 := andi main_v58 main_v62
  main_v63

def fn_part2 {F : FTy → Type} [FloatOps F] (main_arg10 : FVec F S3x200000x36 .f32) (main_arg11 : FVec F S3x200000x36 .f32) (main_arg12 : FVec F S3x200000x36 .f32) (main_arg13 : FVec F S3x200000x36 .f32) (main_arg14 : FVec F S500x100 .f32) (main_arg15 : FVec F S500x100 .f32) (main_v33 : IVec S_ 1) : IVec S_ 1 :=
  let main_v34 : FVec F S3x200000x36 .f32 := Host.absf main_arg10
  let main_cst_12 : FVec F S_ .f32 := constant S_ .f32 0x7F800000#32
  let main_v35 : FVec F S3x200000x36 .f32 := broadcastInDim S3x200000x36 ![] bcast_S_S3x200000x36 main_cst_12
  let main_v36 : IVec S3x200000x36 1 := cmpf .olt main_v34 main_v35
  let main_c_13 : IVec S_ 1 := constantI S_ 1 1#1
  let main_v37 : IVec S_ 1 := (fun x v => Host.reduce IntOp.andi x v reducesTo_S3x200000x36_S_d0_1_2 h_S_) main_v36 main_c_13
  let main_v38 : IVec S_ 1 := andi main_v33 main_v37
  let main_v39 : FVec F S3x200000x36 .f32 := Host.absf main_arg11
  let main_cst_14 : FVec F S_ .f32 := constant S_ .f32 0x7F800000#32
  let main_v40 : FVec F S3x200000x36 .f32 := broadcastInDim S3x200000x36 ![] bcast_S_S3x200000x36 main_cst_14
  let main_v41 : IVec S3x200000x36 1 := cmpf .olt main_v39 main_v40
  let main_c_15 : IVec S_ 1 := constantI S_ 1 1#1
  let main_v42 : IVec S_ 1 := (fun x v => Host.reduce IntOp.andi x v reducesTo_S3x200000x36_S_d0_1_2 h_S_) main_v41 main_c_15
  let main_v43 : IVec S_ 1 := andi main_v38 main_v42
  let main_v44 : FVec F S3x200000x36 .f32 := Host.absf main_arg12
  let main_cst_16 : FVec F S_ .f32 := constant S_ .f32 0x7F800000#32
  let main_v45 : FVec F S3x200000x36 .f32 := broadcastInDim S3x200000x36 ![] bcast_S_S3x200000x36 main_cst_16
  let main_v46 : IVec S3x200000x36 1 := cmpf .olt main_v44 main_v45
  let main_c_17 : IVec S_ 1 := constantI S_ 1 1#1
  let main_v47 : IVec S_ 1 := (fun x v => Host.reduce IntOp.andi x v reducesTo_S3x200000x36_S_d0_1_2 h_S_) main_v46 main_c_17
  let main_v48 : IVec S_ 1 := andi main_v43 main_v47
  let main_v49 : FVec F S3x200000x36 .f32 := Host.absf main_arg13
  let main_cst_18 : FVec F S_ .f32 := constant S_ .f32 0x7F800000#32
  let main_v50 : FVec F S3x200000x36 .f32 := broadcastInDim S3x200000x36 ![] bcast_S_S3x200000x36 main_cst_18
  fn_part3 (F := F) main_arg14 main_arg15 main_v48 main_v49 main_v50

def fn_part1 {F : FTy → Type} [FloatOps F] (main_arg7 : FVec F S200000x64 .f32) (main_arg8 : FVec F S3x200000x36 .f32) (main_arg9 : FVec F S3x200000x36 .f32) (main_arg10 : FVec F S3x200000x36 .f32) (main_arg11 : FVec F S3x200000x36 .f32) (main_arg12 : FVec F S3x200000x36 .f32) (main_arg13 : FVec F S3x200000x36 .f32) (main_arg14 : FVec F S500x100 .f32) (main_arg15 : FVec F S500x100 .f32) (main_v13 : IVec S_ 1) (main_v16 : IVec S200000x64 1) : IVec S_ 1 :=
  let main_c_5 : IVec S_ 1 := constantI S_ 1 1#1
  let main_v17 : IVec S_ 1 := (fun x v => Host.reduce IntOp.andi x v reducesTo_S200000x64_S_d0_1 h_S_) main_v16 main_c_5
  let main_v18 : IVec S_ 1 := andi main_v13 main_v17
  let main_v19 : FVec F S200000x64 .f32 := Host.absf main_arg7
  let main_cst_6 : FVec F S_ .f32 := constant S_ .f32 0x7F800000#32
  let main_v20 : FVec F S200000x64 .f32 := broadcastInDim S200000x64 ![] bcast_S_S200000x64 main_cst_6
  let main_v21 : IVec S200000x64 1 := cmpf .olt main_v19 main_v20
  let main_c_7 : IVec S_ 1 := constantI S_ 1 1#1
  let main_v22 : IVec S_ 1 := (fun x v => Host.reduce IntOp.andi x v reducesTo_S200000x64_S_d0_1 h_S_) main_v21 main_c_7
  let main_v23 : IVec S_ 1 := andi main_v18 main_v22
  let main_v24 : FVec F S3x200000x36 .f32 := Host.absf main_arg8
  let main_cst_8 : FVec F S_ .f32 := constant S_ .f32 0x7F800000#32
  let main_v25 : FVec F S3x200000x36 .f32 := broadcastInDim S3x200000x36 ![] bcast_S_S3x200000x36 main_cst_8
  let main_v26 : IVec S3x200000x36 1 := cmpf .olt main_v24 main_v25
  let main_c_9 : IVec S_ 1 := constantI S_ 1 1#1
  let main_v27 : IVec S_ 1 := (fun x v => Host.reduce IntOp.andi x v reducesTo_S3x200000x36_S_d0_1_2 h_S_) main_v26 main_c_9
  let main_v28 : IVec S_ 1 := andi main_v23 main_v27
  let main_v29 : FVec F S3x200000x36 .f32 := Host.absf main_arg9
  let main_cst_10 : FVec F S_ .f32 := constant S_ .f32 0x7F800000#32
  let main_v30 : FVec F S3x200000x36 .f32 := broadcastInDim S3x200000x36 ![] bcast_S_S3x200000x36 main_cst_10
  let main_v31 : IVec S3x200000x36 1 := cmpf .olt main_v29 main_v30
  let main_c_11 : IVec S_ 1 := constantI S_ 1 1#1
  let main_v32 : IVec S_ 1 := (fun x v => Host.reduce IntOp.andi x v reducesTo_S3x200000x36_S_d0_1_2 h_S_) main_v31 main_c_11
  let main_v33 : IVec S_ 1 := andi main_v28 main_v32
  fn_part2 (F := F) main_arg10 main_arg11 main_arg12 main_arg13 main_arg14 main_arg15 main_v33

def fn {F : FTy → Type} [FloatOps F] (main_arg0 : IVec S262144 32) (main_arg1 : IVec S262144 32) (main_arg2 : IVec S262144 32) (main_arg3 : FVec F S262144 .f32) (main_arg4 : FVec F S262144 .f32) (main_arg5 : FVec F S262144 .f32) (main_arg6 : FVec F S200000x64 .f32) (main_arg7 : FVec F S200000x64 .f32) (main_arg8 : FVec F S3x200000x36 .f32) (main_arg9 : FVec F S3x200000x36 .f32) (main_arg10 : FVec F S3x200000x36 .f32) (main_arg11 : FVec F S3x200000x36 .f32) (main_arg12 : FVec F S3x200000x36 .f32) (main_arg13 : FVec F S3x200000x36 .f32) (main_arg14 : FVec F S500x100 .f32) (main_arg15 : FVec F S500x100 .f32) : IVec S_ 1 :=
  let main_v0 : FVec F S262144 .f32 := Host.absf main_arg3
  let main_cst : FVec F S_ .f32 := constant S_ .f32 0x7F800000#32
  let main_v1 : FVec F S262144 .f32 := broadcastInDim S262144 ![] bcast_S_S262144 main_cst
  let main_v2 : IVec S262144 1 := cmpf .olt main_v0 main_v1
  let main_c : IVec S_ 1 := constantI S_ 1 1#1
  let main_v3 : IVec S_ 1 := (fun x v => Host.reduce IntOp.andi x v reducesTo_S262144_S_d0 h_S_) main_v2 main_c
  let main_v4 : FVec F S262144 .f32 := Host.absf main_arg4
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S262144 .f32 := Host.absf main_arg5
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  let main_v14 : FVec F S200000x64 .f32 := Host.absf main_arg6
  let main_cst_4 : FVec F S_ .f32 := constant S_ .f32 0x7F800000#32
  let main_v15 : FVec F S200000x64 .f32 := broadcastInDim S200000x64 ![] bcast_S_S200000x64 main_cst_4
  let main_v16 : IVec S200000x64 1 := cmpf .olt main_v14 main_v15
  fn_part1 (F := F) main_arg7 main_arg8 main_arg9 main_arg10 main_arg11 main_arg12 main_arg13 main_arg14 main_arg15 main_v13 main_v16
-- ==== Kernel.lean ====
abbrev S262144 : Shape := ⟨1, ![262144]⟩
abbrev S200000x64 : Shape := ⟨2, ![200000, 64]⟩
abbrev S3x200000x36 : Shape := ⟨3, ![3, 200000, 36]⟩
abbrev S500x100 : Shape := ⟨2, ![500, 100]⟩
abbrev S200000x128 : Shape := ⟨2, ![200000, 128]⟩
abbrev S_ : Shape := ⟨0, ![]⟩
abbrev S262144x1 : Shape := ⟨2, ![262144, 1]⟩
abbrev S262144x128 : Shape := ⟨2, ![262144, 128]⟩
abbrev S3x262144x36 : Shape := ⟨3, ![3, 262144, 36]⟩
abbrev S262144x3x36 : Shape := ⟨3, ![262144, 3, 36]⟩
abbrev S262144x108 : Shape := ⟨2, ![262144, 108]⟩
abbrev S262144x324 : Shape := ⟨2, ![262144, 324]⟩
abbrev S262144x36 : Shape := ⟨2, ![262144, 36]⟩
abbrev S262144x100 : Shape := ⟨2, ![262144, 100]⟩
abbrev S1024x128 : Shape := ⟨2, ![1024, 128]⟩
abbrev S1024x324 : Shape := ⟨2, ![1024, 324]⟩
abbrev S1024x108 : Shape := ⟨2, ![1024, 108]⟩
abbrev S1024x100 : Shape := ⟨2, ![1024, 100]⟩
abbrev S1024x1 : Shape := ⟨2, ![1024, 1]⟩
abbrev S1024x36 : Shape := ⟨2, ![1024, 36]⟩
abbrev S1024x64 : Shape := ⟨2, ![1024, 64]⟩
abbrev S1024 : Shape := ⟨1, ![1024]⟩

abbrev nBuf : Space → Nat
  | .hbm => 198
  | .vmem => 20
  | .smem => 0
  | _ => 0

abbrev hbmTy0_0 (i : Nat) : BufTy := match i % 128 with
  | 0 => ⟨S262144, .i32⟩
  | 1 => ⟨S262144, .i32⟩
  | 2 => ⟨S262144, .i32⟩
  | 3 => ⟨S262144, .f32⟩
  | 4 => ⟨S262144, .f32⟩
  | 5 => ⟨S262144, .f32⟩
  | 6 => ⟨S200000x64, .f32⟩
  | 7 => ⟨S200000x64, .f32⟩
  | 8 => ⟨S3x200000x36, .f32⟩
  | 9 => ⟨S3x200000x36, .f32⟩
  | 10 => ⟨S3x200000x36, .f32⟩
  | 11 => ⟨S3x200000x36, .f32⟩
  | 12 => ⟨S3x200000x36, .f32⟩
  | 13 => ⟨S3x200000x36, .f32⟩
  | 14 => ⟨S500x100, .f32⟩
  | 15 => ⟨S500x100, .f32⟩
  | 16 => ⟨S200000x128, .f32⟩
  | 17 => ⟨S_, .i32⟩
  | 18 => ⟨S262144, .i32⟩
  | 19 => ⟨S262144, .i1⟩
  | 20 => ⟨S_, .i32⟩
  | 21 => ⟨S262144, .i32⟩
  | 22 => ⟨S262144, .i32⟩
  | 23 => ⟨S262144, .i32⟩
  | 24 => ⟨S262144x1, .i32⟩
  | 25 => ⟨S262144x128, .f32⟩
  | 26 => ⟨S_, .i32⟩
  | 27 => ⟨S262144, .i32⟩
  | 28 => ⟨S262144, .i1⟩
  | 29 => ⟨S_, .i32⟩
  | 30 => ⟨S262144, .i32⟩
  | 31 => ⟨S262144, .i32⟩
  | 32 => ⟨S262144, .i32⟩
  | 33 => ⟨S262144x1, .i32⟩
  | 34 => ⟨S262144x128, .f32⟩
  | 35 => ⟨S_, .i32⟩
  | 36 => ⟨S262144, .i32⟩
  | 37 => ⟨S262144, .i1⟩
  | 38 => ⟨S_, .i32⟩
  | 39 => ⟨S262144, .i32⟩
  | 40 => ⟨S262144, .i32⟩
  | 41 => ⟨S262144, .i32⟩
  | 42 => ⟨S262144x1, .i32⟩
  | 43 => ⟨S3x262144x36, .f32⟩
  | 44 => ⟨S262144x3x36, .f32⟩
  | 45 => ⟨S262144x108, .f32⟩
  | 46 => ⟨S_, .i32⟩
  | 47 => ⟨S262144, .i32⟩
  | 48 => ⟨S262144, .i1⟩
  | 49 => ⟨S_, .i32⟩
  | 50 => ⟨S262144, .i32⟩
  | 51 => ⟨S262144, .i32⟩
  | 52 => ⟨S262144, .i32⟩
  | 53 => ⟨S262144x1, .i32⟩
  | 54 => ⟨S3x262144x36, .f32⟩
  | 55 => ⟨S262144x3x36, .f32⟩
  | 56 => ⟨S262144x108, .f32⟩
  | 57 => ⟨S_, .i32⟩
  | 58 => ⟨S262144, .i32⟩
  | 59 => ⟨S262144, .i1⟩
  | 60 => ⟨S_, .i32⟩
  | 61 => ⟨S262144, .i32⟩
  | 62 => ⟨S262144, .i32⟩
  | 63 => ⟨S262144, .i32⟩
  | 64 => ⟨S262144x1, .i32⟩
  | 65 => ⟨S3x262144x36, .f32⟩
  | 66 => ⟨S262144x3x36, .f32⟩
  | 67 => ⟨S262144x108, .f32⟩
  | 68 => ⟨S262144x324, .f32⟩
  | 69 => ⟨S_, .i32⟩
  | 70 => ⟨S262144, .i32⟩
  | 71 => ⟨S262144, .i1⟩
  | 72 => ⟨S_, .i32⟩
  | 73 => ⟨S262144, .i32⟩
  | 74 => ⟨S262144, .i32⟩
  | 75 => ⟨S262144, .i32⟩
  | 76 => ⟨S262144x1, .i32⟩
  | 77 => ⟨S3x262144x36, .f32⟩
  | 78 => ⟨S262144x3x36, .f32⟩
  | 79 => ⟨S262144x108, .f32⟩
  | 80 => ⟨S_, .i32⟩
  | 81 => ⟨S262144, .i32⟩
  | 82 => ⟨S262144, .i1⟩
  | 83 => ⟨S_, .i32⟩
  | 84 => ⟨S262144, .i32⟩
  | 85 => ⟨S262144, .i32⟩
  | 86 => ⟨S262144, .i32⟩
  | 87 => ⟨S262144x1, .i32⟩
  | 88 => ⟨S3x262144x36, .f32⟩
  | 89 => ⟨S262144x3x36, .f32⟩
  | 90 => ⟨S262144x108, .f32⟩
  | 91 => ⟨S_, .i32⟩
  | 92 => ⟨S262144, .i32⟩
  | 93 => ⟨S262144, .i1⟩
  | 94 => ⟨S_, .i32⟩
  | 95 => ⟨S262144, .i32⟩
  | 96 => ⟨S262144, .i32⟩
  | 97 => ⟨S262144, .i32⟩
  | 98 => ⟨S262144x1, .i32⟩
  | 99 => ⟨S3x262144x36, .f32⟩
  | 100 => ⟨S262144x3x36, .f32⟩
  | 101 => ⟨S262144x108, .f32⟩
  | 102 => ⟨S262144x324, .f32⟩
  | 103 => ⟨S_, .i32⟩
  | 104 => ⟨S262144, .i32⟩
  | 105 => ⟨S262144, .i1⟩
  | 106 => ⟨S_, .i32⟩
  | 107 => ⟨S262144, .i32⟩
  | 108 => ⟨S262144, .i32⟩
  | 109 => ⟨S262144, .i32⟩
  | 110 => ⟨S262144x1, .i32⟩
  | 111 => ⟨S3x262144x36, .f32⟩
  | 112 => ⟨S262144x3x36, .f32⟩
  | 113 => ⟨S262144x108, .f32⟩
  | 114 => ⟨S_, .i32⟩
  | 115 => ⟨S262144, .i32⟩
  | 116 => ⟨S262144, .i1⟩
  | 117 => ⟨S_, .i32⟩
  | 118 => ⟨S262144, .i32⟩
  | 119 => ⟨S262144, .i32⟩
  | 120 => ⟨S262144, .i32⟩
  | 121 => ⟨S262144x1, .i32⟩
  | 122 => ⟨S3x262144x36, .f32⟩
  | 123 => ⟨S262144x3x36, .f32⟩
  | 124 => ⟨S262144x108, .f32⟩
  | 125 => ⟨S_, .i32⟩
  | 126 => ⟨S262144, .i32⟩
  | 127 => ⟨S262144, .i1⟩
  | _ => ⟨S262144, .i32⟩

abbrev hbmTy0_1 (i : Nat) : BufTy := match i % 128 with
  | 0 => ⟨S_, .i32⟩
  | 1 => ⟨S262144, .i32⟩
  | 2 => ⟨S262144, .i32⟩
  | 3 => ⟨S262144, .i32⟩
  | 4 => ⟨S262144x1, .i32⟩
  | 5 => ⟨S3x262144x36, .f32⟩
  | 6 => ⟨S262144x3x36, .f32⟩
  | 7 => ⟨S262144x108, .f32⟩
  | 8 => ⟨S262144x324, .f32⟩
  | 9 => ⟨S_, .i32⟩
  | 10 => ⟨S262144, .i32⟩
  | 11 => ⟨S262144, .i1⟩
  | 12 => ⟨S_, .i32⟩
  | 13 => ⟨S262144, .i32⟩
  | 14 => ⟨S262144, .i32⟩
  | 15 => ⟨S262144, .i32⟩
  | 16 => ⟨S262144x1, .i32⟩
  | 17 => ⟨S3x262144x36, .f32⟩
  | 18 => ⟨S262144x3x36, .f32⟩
  | 19 => ⟨S262144x108, .f32⟩
  | 20 => ⟨S_, .i32⟩
  | 21 => ⟨S262144, .i32⟩
  | 22 => ⟨S262144, .i1⟩
  | 23 => ⟨S_, .i32⟩
  | 24 => ⟨S262144, .i32⟩
  | 25 => ⟨S262144, .i32⟩
  | 26 => ⟨S262144, .i32⟩
  | 27 => ⟨S262144x1, .i32⟩
  | 28 => ⟨S3x262144x36, .f32⟩
  | 29 => ⟨S262144x3x36, .f32⟩
  | 30 => ⟨S262144x108, .f32⟩
  | 31 => ⟨S_, .i32⟩
  | 32 => ⟨S262144, .i32⟩
  | 33 => ⟨S262144, .i1⟩
  | 34 => ⟨S_, .i32⟩
  | 35 => ⟨S262144, .i32⟩
  | 36 => ⟨S262144, .i32⟩
  | 37 => ⟨S262144, .i32⟩
  | 38 => ⟨S262144x1, .i32⟩
  | 39 => ⟨S3x262144x36, .f32⟩
  | 40 => ⟨S262144x3x36, .f32⟩
  | 41 => ⟨S262144x108, .f32⟩
  | 42 => ⟨S262144x324, .f32⟩
  | 43 => ⟨S262144x1, .f32⟩
  | 44 => ⟨S262144x36, .f32⟩
  | 45 => ⟨S262144x1, .f32⟩
  | 46 => ⟨S262144x36, .f32⟩
  | 47 => ⟨S262144x1, .f32⟩
  | 48 => ⟨S262144x36, .f32⟩
  | 49 => ⟨S262144x108, .f32⟩
  | 50 => ⟨S_, .i32⟩
  | 51 => ⟨S262144, .i32⟩
  | 52 => ⟨S262144, .i1⟩
  | 53 => ⟨S_, .i32⟩
  | 54 => ⟨S262144, .i32⟩
  | 55 => ⟨S262144, .i32⟩
  | 56 => ⟨S262144, .i32⟩
  | 57 => ⟨S262144x1, .i32⟩
  | 58 => ⟨S262144x100, .f32⟩
  | 59 => ⟨S_, .i32⟩
  | 60 => ⟨S262144, .i32⟩
  | 61 => ⟨S262144, .i1⟩
  | 62 => ⟨S_, .i32⟩
  | 63 => ⟨S262144, .i32⟩
  | 64 => ⟨S262144, .i32⟩
  | 65 => ⟨S262144, .i32⟩
  | 66 => ⟨S262144x1, .i32⟩
  | 67 => ⟨S262144x100, .f32⟩
  | 68 => ⟨S262144x1, .f32⟩
  | 69 => ⟨S262144, .f32⟩
  | _ => ⟨S262144, .i32⟩

abbrev hbmTy (i : Nat) : BufTy := match i / 128 with
  | 0 => hbmTy0_0 i
  | 1 => hbmTy0_1 i
  | _ => ⟨S262144, .i32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x324, .f32⟩
  | .local _ .vmem, ⟨5, _⟩ => ⟨S1024x324, .f32⟩
  | .local _ .vmem, ⟨6, _⟩ => ⟨S1024x324, .f32⟩
  | .local _ .vmem, ⟨7, _⟩ => ⟨S1024x324, .f32⟩
  | .local _ .vmem, ⟨8, _⟩ => ⟨S1024x324, .f32⟩
  | .local _ .vmem, ⟨9, _⟩ => ⟨S1024x324, .f32⟩
  | .local _ .vmem, ⟨10, _⟩ => ⟨S1024x324, .f32⟩
  | .local _ .vmem, ⟨11, _⟩ => ⟨S1024x324, .f32⟩
  | .local _ .vmem, ⟨12, _⟩ => ⟨S1024x108, .f32⟩
  | .local _ .vmem, ⟨13, _⟩ => ⟨S1024x108, .f32⟩
  | .local _ .vmem, ⟨14, _⟩ => ⟨S1024x100, .f32⟩
  | .local _ .vmem, ⟨15, _⟩ => ⟨S1024x100, .f32⟩
  | .local _ .vmem, ⟨16, _⟩ => ⟨S1024x100, .f32⟩
  | .local _ .vmem, ⟨17, _⟩ => ⟨S1024x100, .f32⟩
  | .local _ .vmem, ⟨18, _⟩ => ⟨S1024x1, .f32⟩
  | .local _ .vmem, ⟨19, _⟩ => ⟨S1024x1, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_v1 : Ref sig .tc := ⟨.hbm, 18, rfl⟩
abbrev main_v2 : Ref sig .tc := ⟨.hbm, 19, rfl⟩
abbrev main_c_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_v9 : Ref sig .tc := ⟨.hbm, 28, rfl⟩
abbrev main_c_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_9 : Ref sig .tc := ⟨.hbm, 69, rfl⟩
abbrev main_v43 : Ref sig .tc := ⟨.hbm, 70, rfl⟩
abbrev main_v44 : Ref sig .tc := ⟨.hbm, 71, rfl⟩
abbrev main_c_10 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_11 : Ref sig .tc := ⟨.hbm, 80, rfl⟩
abbrev main_v52 : Ref sig .tc := ⟨.hbm, 81, rfl⟩
abbrev main_v53 : Ref sig .tc := ⟨.hbm, 82, rfl⟩
abbrev main_c_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_13 : Ref sig .tc := ⟨.hbm, 91, rfl⟩
abbrev main_v61 : Ref sig .tc := ⟨.hbm, 92, rfl⟩
abbrev main_v62 : Ref sig .tc := ⟨.hbm, 93, rfl⟩
abbrev main_c_14 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_15 : Ref sig .tc := ⟨.hbm, 103, rfl⟩
abbrev main_v71 : Ref sig .tc := ⟨.hbm, 104, rfl⟩
abbrev main_v72 : Ref sig .tc := ⟨.hbm, 105, rfl⟩
abbrev main_c_16 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_17 : Ref sig .tc := ⟨.hbm, 114, rfl⟩
abbrev main_v80 : Ref sig .tc := ⟨.hbm, 115, rfl⟩
abbrev main_v81 : Ref sig .tc := ⟨.hbm, 116, rfl⟩
abbrev main_c_18 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_19 : Ref sig .tc := ⟨.hbm, 125, rfl⟩
abbrev main_v89 : Ref sig .tc := ⟨.hbm, 126, rfl⟩
abbrev main_v90 : Ref sig .tc := ⟨.hbm, 127, rfl⟩
abbrev main_c_20 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_c_21 : Ref sig .tc := ⟨.hbm, 137, rfl⟩
abbrev main_v99 : Ref sig .tc := ⟨.hbm, 138, rfl⟩
abbrev main_v100 : Ref sig .tc := ⟨.hbm, 139, rfl⟩
abbrev main_c_22 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_23 : Ref sig .tc := ⟨.hbm, 148, rfl⟩
abbrev main_v108 : Ref sig .tc := ⟨.hbm, 149, rfl⟩
abbrev main_v109 : Ref sig .tc := ⟨.hbm, 150, rfl⟩
abbrev main_c_24 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_c_25 : Ref sig .tc := ⟨.hbm, 159, rfl⟩
abbrev main_v117 : Ref sig .tc := ⟨.hbm, 160, rfl⟩
abbrev main_v118 : Ref sig .tc := ⟨.hbm, 161, rfl⟩
abbrev main_c_26 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_c_27 : Ref sig .tc := ⟨.hbm, 178, rfl⟩
abbrev main_v134 : Ref sig .tc := ⟨.hbm, 179, rfl⟩
abbrev main_v135 : Ref sig .tc := ⟨.hbm, 180, rfl⟩
abbrev main_c_28 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_c_29 : Ref sig .tc := ⟨.hbm, 187, rfl⟩
abbrev main_v141 : Ref sig .tc := ⟨.hbm, 188, rfl⟩
abbrev main_v142 : Ref sig .tc := ⟨.hbm, 189, rfl⟩
abbrev main_c_30 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x324 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x324 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x324 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x324 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x108 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x100 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x100 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  concatenates_S200000x64_S200000x64_S200000x128_d1 : Shape.Concatenates [S200000x64, S200000x64] S200000x128 1
  bcast_S_S262144 : S_.BroadcastsInDim S262144 (![] : Fin 0 → Fin S262144.rank)
  bcast_S262144_S262144x1_0 : S262144.BroadcastsInDim S262144x1 (![0] : Fin 1 → Fin S262144x1.rank)
  transposes_S3x262144x36_S262144x3x36_1_0_2 : S3x262144x36.Transposes [1, 0, 2] S262144x3x36
  shapeCasts_S262144x3x36_S262144x108 : S262144x3x36.ShapeCasts S262144x108
  concatenates_S262144x108_S262144x108_S262144x108_S262144x324_d1 : Shape.Concatenates [S262144x108, S262144x108, S262144x108] S262144x324 1
  bcast_S262144x1_S262144x36_0_1 : S262144x1.BroadcastsInDim S262144x36 (![0, 1] : Fin 2 → Fin S262144x36.rank)
  concatenates_S262144x36_S262144x36_S262144x36_S262144x108_d1 : Shape.Concatenates [S262144x36, S262144x36, S262144x36] S262144x108 1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x108_S1024x108_0_0 : ∀ a, (![0, 0] : Fin 2 → Nat) a + S1024x108.size a ≤ S1024x108.size a
  h_S1024x108 : 0 < S1024x108.numel
  shapeCasts_S1024x108_S1024x108 : S1024x108.ShapeCasts S1024x108
  inb_S1024x324_S1024x324_0_0 : ∀ a, (![0, 0] : Fin 2 → Nat) a + S1024x324.size a ≤ S1024x324.size a
  h_S1024x324 : 0 < S1024x324.numel
  shapeCasts_S1024x324_S1024x324 : S1024x324.ShapeCasts S1024x324
  slices_S1024x324_o0_0_S1024x108 : S1024x324.Slices ![0, 0] S1024x108
  slices_S1024x324_o0_108_S1024x108 : S1024x324.Slices ![0, 108] S1024x108
  slices_S1024x324_o0_216_S1024x108 : S1024x324.Slices ![0, 216] S1024x108
  slices_S1024x108_o0_0_S1024x36 : S1024x108.Slices ![0, 0] S1024x36
  slices_S1024x108_o0_36_S1024x36 : S1024x108.Slices ![0, 36] S1024x36
  slices_S1024x108_o0_72_S1024x36 : S1024x108.Slices ![0, 72] S1024x36
  slices_S1024x128_o0_0_S1024x64 : S1024x128.Slices ![0, 0] S1024x64
  concatenates_S1024x64_S1024x36_S1024x100_d1 : Shape.Concatenates [S1024x64, S1024x36] S1024x100 1
  slices_S1024x128_o0_64_S1024x64 : S1024x128.Slices ![0, 64] S1024x64
  inb_S1024x100_S1024x100_0_0 : ∀ a, (![0, 0] : Fin 2 → Nat) a + S1024x100.size a ≤ S1024x100.size a
  h_S1024x100 : 0 < S1024x100.numel
  shapeCasts_S1024x100_S1024x100 : S1024x100.ShapeCasts S1024x100
  reduces_S1024x100_S1024 : S1024x100.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S262144x1_S262144 : S262144x1.ShapeCasts S262144
  gather_S200000x128_S262144x1_S262144x128_1_0_n_n_0_1_1128_wf : GatherDims.WF S200000x128 S262144x1 S262144x128 [1] [0] [] [0] [] 1 ![1, 128]
  gather_S3x200000x36_S262144x1_S3x262144x36_02_1_n_n_1_1_3136_wf : GatherDims.WF S3x200000x36 S262144x1 S3x262144x36 [0, 2] [1] [] [1] [] 1 ![3, 1, 36]
  gather_S500x100_S262144x1_S262144x100_1_0_n_n_0_1_1100_wf : GatherDims.WF S500x100 S262144x1 S262144x100 [1] [0] [] [0] [] 1 ![1, 100]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S262144x128.size a
  hwx0_0 : ∀ i : grid0.Coords, EltTy.bits .f32 = 32 ∨ (Rect.block (s := S262144x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S262144x128.size a
  hwx0_1 : ∀ i : grid0.Coords, EltTy.bits .f32 = 32 ∨ (Rect.block (s := S262144x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x324.size a ≤ S262144x324.size a
  hwx0_2 : ∀ i : grid0.Coords, EltTy.bits .f32 = 32 ∨ (Rect.block (s := S262144x324) S1024x324.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x324.size a ≤ S262144x324.size a
  hwx0_3 : ∀ i : grid0.Coords, EltTy.bits .f32 = 32 ∨ (Rect.block (s := S262144x324) S1024x324.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x324.size a ≤ S262144x324.size a
  hwx0_4 : ∀ i : grid0.Coords, EltTy.bits .f32 = 32 ∨ (Rect.block (s := S262144x324) S1024x324.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x324.size a ≤ S262144x324.size a
  hwx0_5 : ∀ i : grid0.Coords, EltTy.bits .f32 = 32 ∨ (Rect.block (s := S262144x324) S1024x324.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x108.size a ≤ S262144x108.size a
  hwx0_6 : ∀ i : grid0.Coords, EltTy.bits .f32 = 32 ∨ (Rect.block (s := S262144x108) S1024x108.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x100.size a ≤ S262144x100.size a
  hwx0_7 : ∀ i : grid0.Coords, EltTy.bits .f32 = 32 ∨ (Rect.block (s := S262144x100) S1024x100.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x100.size a ≤ S262144x100.size a
  hwx0_8 : ∀ i : grid0.Coords, EltTy.bits .f32 = 32 ∨ (Rect.block (s := S262144x100) S1024x100.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x1.size a ≤ S262144x1.size a
  hwx0_9 : ∀ i : grid0.Coords, EltTy.bits .f32 = 32 ∨ (Rect.block (s := S262144x1) S1024x1.size (cc0_transform_9 i) (hinb0_9 i)).WholeWords (EltTy.packing .f32)

variable [Facts₀]

def gather_S200000x128_S262144x1_S262144x128_1_0_n_n_0_1_1128 : GatherDims S200000x128 S262144x1 S262144x128 where
  offsetDims := [1]
  collapsedSliceDims := [0]
  operandBatchingDims := []
  startIndicesBatchingDims := []
  startIndexMap := [0]
  indexVectorDim := 1
  sliceSizes := ![1, 128]
  wf := gather_S200000x128_S262144x1_S262144x128_1_0_n_n_0_1_1128_wf
def gather_S3x200000x36_S262144x1_S3x262144x36_02_1_n_n_1_1_3136 : GatherDims S3x200000x36 S262144x1 S3x262144x36 where
  offsetDims := [0, 2]
  collapsedSliceDims := [1]
  operandBatchingDims := []
  startIndicesBatchingDims := []
  startIndexMap := [1]
  indexVectorDim := 1
  sliceSizes := ![3, 1, 36]
  wf := gather_S3x200000x36_S262144x1_S3x262144x36_02_1_n_n_1_1_3136_wf
def gather_S500x100_S262144x1_S262144x100_1_0_n_n_0_1_1100 : GatherDims S500x100 S262144x1 S262144x100 where
  offsetDims := [1]
  collapsedSliceDims := [0]
  operandBatchingDims := []
  startIndicesBatchingDims := []
  startIndexMap := [0]
  indexVectorDim := 1
  sliceSizes := ![1, 100]
  wf := gather_S500x100_S262144x1_S262144x100_1_0_n_n_0_1_1100_wf

abbrev win0_0 : Pipeline.Window sig grid0 :=
  Pipeline.Window.ofSpec (Memref.whole main_v7) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S1024x324.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v70) S1024x324.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v98) S1024x324.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v126) S1024x324.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v133) S1024x108.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v140) S1024x100.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v147) S1024x100.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v148) S1024x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144 : Shape := ⟨1, ![262144]⟩
abbrev S200000x64 : Shape := ⟨2, ![200000, 64]⟩
abbrev S3x200000x36 : Shape := ⟨3, ![3, 200000, 36]⟩
abbrev S500x100 : Shape := ⟨2, ![500, 100]⟩
abbrev S1x262144 : Shape := ⟨2, ![1, 262144]⟩
abbrev S3x262144 : Shape := ⟨2, ![3, 262144]⟩
abbrev S3x262144x1 : Shape := ⟨3, ![3, 262144, 1]⟩
abbrev S_ : Shape := ⟨0, ![]⟩
abbrev S262144x1 : Shape := ⟨2, ![262144, 1]⟩
abbrev S262144x64 : Shape := ⟨2, ![262144, 64]⟩
abbrev S3x262144x36 : Shape := ⟨3, ![3, 262144, 36]⟩
abbrev S262144x36 : Shape := ⟨2, ![262144, 36]⟩
abbrev S262144x100 : Shape := ⟨2, ![262144, 100]⟩

abbrev nBuf : Space → Nat
  | .hbm => 225
  | .vmem => 0
  | .smem => 0
  | _ => 0

abbrev hbmTy0_0 (i : Nat) : BufTy := match i % 128 with
  | 0 => ⟨S262144, .i32⟩
  | 1 => ⟨S262144, .i32⟩
  | 2 => ⟨S262144, .i32⟩
  | 3 => ⟨S262144, .f32⟩
  | 4 => ⟨S262144, .f32⟩
  | 5 => ⟨S262144, .f32⟩
  | 6 => ⟨S200000x64, .f32⟩
  | 7 => ⟨S200000x64, .f32⟩
  | 8 => ⟨S3x200000x36, .f32⟩
  | 9 => ⟨S3x200000x36, .f32⟩
  | 10 => ⟨S3x200000x36, .f32⟩
  | 11 => ⟨S3x200000x36, .f32⟩
  | 12 => ⟨S3x200000x36, .f32⟩
  | 13 => ⟨S3x200000x36, .f32⟩
  | 14 => ⟨S500x100, .f32⟩
  | 15 => ⟨S500x100, .f32⟩
  | 16 => ⟨S1x262144, .f32⟩
  | 17 => ⟨S1x262144, .f32⟩
  | 18 => ⟨S1x262144, .f32⟩
  | 19 => ⟨S3x262144, .f32⟩
  | 20 => ⟨S3x262144x1, .f32⟩
  | 21 => ⟨S_, .i32⟩
  | 22 => ⟨S262144, .i32⟩
  | 23 => ⟨S262144, .i1⟩
  | 24 => ⟨S_, .i32⟩
  | 25 => ⟨S262144, .i32⟩
  | 26 => ⟨S262144, .i32⟩
  | 27 => ⟨S262144, .i32⟩
  | 28 => ⟨S262144x1, .i32⟩
  | 29 => ⟨S262144x64, .f32⟩
  | 30 => ⟨S_, .i32⟩
  | 31 => ⟨S262144, .i32⟩
  | 32 => ⟨S262144, .i1⟩
  | 33 => ⟨S_, .i32⟩
  | 34 => ⟨S262144, .i32⟩
  | 35 => ⟨S262144, .i32⟩
  | 36 => ⟨S262144, .i32⟩
  | 37 => ⟨S262144x1, .i32⟩
  | 38 => ⟨S3x262144x36, .f32⟩
  | 39 => ⟨S_, .i32⟩
  | 40 => ⟨S262144, .i32⟩
  | 41 => ⟨S262144, .i1⟩
  | 42 => ⟨S_, .i32⟩
  | 43 => ⟨S262144, .i32⟩
  | 44 => ⟨S262144, .i32⟩
  | 45 => ⟨S262144, .i32⟩
  | 46 => ⟨S262144x1, .i32⟩
  | 47 => ⟨S3x262144x36, .f32⟩
  | 48 => ⟨S3x262144x36, .f32⟩
  | 49 => ⟨S3x262144x36, .f32⟩
  | 50 => ⟨S_, .i32⟩
  | 51 => ⟨S262144, .i32⟩
  | 52 => ⟨S262144, .i1⟩
  | 53 => ⟨S_, .i32⟩
  | 54 => ⟨S262144, .i32⟩
  | 55 => ⟨S262144, .i32⟩
  | 56 => ⟨S262144, .i32⟩
  | 57 => ⟨S262144x1, .i32⟩
  | 58 => ⟨S3x262144x36, .f32⟩
  | 59 => ⟨S3x262144x36, .f32⟩
  | 60 => ⟨S3x262144x36, .f32⟩
  | 61 => ⟨S3x262144x36, .f32⟩
  | 62 => ⟨S_, .f32⟩
  | 63 => ⟨S262144x36, .f32⟩
  | 64 => ⟨S262144x100, .f32⟩
  | 65 => ⟨S_, .i32⟩
  | 66 => ⟨S262144, .i32⟩
  | 67 => ⟨S262144, .i1⟩
  | 68 => ⟨S_, .i32⟩
  | 69 => ⟨S262144, .i32⟩
  | 70 => ⟨S262144, .i32⟩
  | 71 => ⟨S262144, .i32⟩
  | 72 => ⟨S262144x1, .i32⟩
  | 73 => ⟨S262144x64, .f32⟩
  | 74 => ⟨S_, .i32⟩
  | 75 => ⟨S262144, .i32⟩
  | 76 => ⟨S262144, .i1⟩
  | 77 => ⟨S_, .i32⟩
  | 78 => ⟨S262144, .i32⟩
  | 79 => ⟨S262144, .i32⟩
  | 80 => ⟨S262144, .i32⟩
  | 81 => ⟨S262144x1, .i32⟩
  | 82 => ⟨S3x262144x36, .f32⟩
  | 83 => ⟨S_, .i32⟩
  | 84 => ⟨S262144, .i32⟩
  | 85 => ⟨S262144, .i1⟩
  | 86 => ⟨S_, .i32⟩
  | 87 => ⟨S262144, .i32⟩
  | 88 => ⟨S262144, .i32⟩
  | 89 => ⟨S262144, .i32⟩
  | 90 => ⟨S262144x1, .i32⟩
  | 91 => ⟨S3x262144x36, .f32⟩
  | 92 => ⟨S3x262144x36, .f32⟩
  | 93 => ⟨S3x262144x36, .f32⟩
  | 94 => ⟨S_, .i32⟩
  | 95 => ⟨S262144, .i32⟩
  | 96 => ⟨S262144, .i1⟩
  | 97 => ⟨S_, .i32⟩
  | 98 => ⟨S262144, .i32⟩
  | 99 => ⟨S262144, .i32⟩
  | 100 => ⟨S262144, .i32⟩
  | 101 => ⟨S262144x1, .i32⟩
  | 102 => ⟨S3x262144x36, .f32⟩
  | 103 => ⟨S3x262144x36, .f32⟩
  | 104 => ⟨S3x262144x36, .f32⟩
  | 105 => ⟨S3x262144x36, .f32⟩
  | 106 => ⟨S_, .f32⟩
  | 107 => ⟨S262144x36, .f32⟩
  | 108 => ⟨S262144x100, .f32⟩
  | 109 => ⟨S_, .i32⟩
  | 110 => ⟨S262144, .i32⟩
  | 111 => ⟨S262144, .i1⟩
  | 112 => ⟨S_, .i32⟩
  | 113 => ⟨S262144, .i32⟩
  | 114 => ⟨S262144, .i32⟩
  | 115 => ⟨S262144, .i32⟩
  | 116 => ⟨S262144x1, .i32⟩
  | 117 => ⟨S262144x64, .f32⟩
  | 118 => ⟨S_, .i32⟩
  | 119 => ⟨S262144, .i32⟩
  | 120 => ⟨S262144, .i1⟩
  | 121 => ⟨S_, .i32⟩
  | 122 => ⟨S262144, .i32⟩
  | 123 => ⟨S262144, .i32⟩
  | 124 => ⟨S262144, .i32⟩
  | 125 => ⟨S262144x1, .i32⟩
  | 126 => ⟨S3x262144x36, .f32⟩
  | 127 => ⟨S_, .i32⟩
  | _ => ⟨S262144, .i32⟩

abbrev hbmTy0_1 (i : Nat) : BufTy := match i % 128 with
  | 0 => ⟨S262144, .i32⟩
  | 1 => ⟨S262144, .i1⟩
  | 2 => ⟨S_, .i32⟩
  | 3 => ⟨S262144, .i32⟩
  | 4 => ⟨S262144, .i32⟩
  | 5 => ⟨S262144, .i32⟩
  | 6 => ⟨S262144x1, .i32⟩
  | 7 => ⟨S3x262144x36, .f32⟩
  | 8 => ⟨S3x262144x36, .f32⟩
  | 9 => ⟨S3x262144x36, .f32⟩
  | 10 => ⟨S_, .i32⟩
  | 11 => ⟨S262144, .i32⟩
  | 12 => ⟨S262144, .i1⟩
  | 13 => ⟨S_, .i32⟩
  | 14 => ⟨S262144, .i32⟩
  | 15 => ⟨S262144, .i32⟩
  | 16 => ⟨S262144, .i32⟩
  | 17 => ⟨S262144x1, .i32⟩
  | 18 => ⟨S3x262144x36, .f32⟩
  | 19 => ⟨S3x262144x36, .f32⟩
  | 20 => ⟨S3x262144x36, .f32⟩
  | 21 => ⟨S3x262144x36, .f32⟩
  | 22 => ⟨S_, .f32⟩
  | 23 => ⟨S262144x36, .f32⟩
  | 24 => ⟨S262144x100, .f32⟩
  | 25 => ⟨S_, .i32⟩
  | 26 => ⟨S262144, .i32⟩
  | 27 => ⟨S262144, .i1⟩
  | 28 => ⟨S_, .i32⟩
  | 29 => ⟨S262144, .i32⟩
  | 30 => ⟨S262144, .i32⟩
  | 31 => ⟨S262144, .i32⟩
  | 32 => ⟨S262144x1, .i32⟩
  | 33 => ⟨S262144x64, .f32⟩
  | 34 => ⟨S_, .i32⟩
  | 35 => ⟨S262144, .i32⟩
  | 36 => ⟨S262144, .i1⟩
  | 37 => ⟨S_, .i32⟩
  | 38 => ⟨S262144, .i32⟩
  | 39 => ⟨S262144, .i32⟩
  | 40 => ⟨S262144, .i32⟩
  | 41 => ⟨S262144x1, .i32⟩
  | 42 => ⟨S3x262144x36, .f32⟩
  | 43 => ⟨S_, .i32⟩
  | 44 => ⟨S262144, .i32⟩
  | 45 => ⟨S262144, .i1⟩
  | 46 => ⟨S_, .i32⟩
  | 47 => ⟨S262144, .i32⟩
  | 48 => ⟨S262144, .i32⟩
  | 49 => ⟨S262144, .i32⟩
  | 50 => ⟨S262144x1, .i32⟩
  | 51 => ⟨S3x262144x36, .f32⟩
  | 52 => ⟨S3x262144x36, .f32⟩
  | 53 => ⟨S3x262144x36, .f32⟩
  | 54 => ⟨S_, .i32⟩
  | 55 => ⟨S262144, .i32⟩
  | 56 => ⟨S262144, .i1⟩
  | 57 => ⟨S_, .i32⟩
  | 58 => ⟨S262144, .i32⟩
  | 59 => ⟨S262144, .i32⟩
  | 60 => ⟨S262144, .i32⟩
  | 61 => ⟨S262144x1, .i32⟩
  | 62 => ⟨S3x262144x36, .f32⟩
  | 63 => ⟨S3x262144x36, .f32⟩
  | 64 => ⟨S3x262144x36, .f32⟩
  | 65 => ⟨S3x262144x36, .f32⟩
  | 66 => ⟨S_, .f32⟩
  | 67 => ⟨S262144x36, .f32⟩
  | 68 => ⟨S262144x100, .f32⟩
  | 69 => ⟨S_, .i32⟩
  | 70 => ⟨S262144, .i32⟩
  | 71 => ⟨S262144, .i1⟩
  | 72 => ⟨S_, .i32⟩
  | 73 => ⟨S262144, .i32⟩
  | 74 => ⟨S262144, .i32⟩
  | 75 => ⟨S262144, .i32⟩
  | 76 => ⟨S262144x1, .i32⟩
  | 77 => ⟨S262144x100, .f32⟩
  | 78 => ⟨S262144x100, .f32⟩
  | 79 => ⟨S262144x100, .f32⟩
  | 80 => ⟨S_, .i32⟩
  | 81 => ⟨S262144, .i32⟩
  | 82 => ⟨S262144, .i1⟩
  | 83 => ⟨S_, .i32⟩
  | 84 => ⟨S262144, .i32⟩
  | 85 => ⟨S262144, .i32⟩
  | 86 => ⟨S262144, .i32⟩
  | 87 => ⟨S262144x1, .i32⟩
  | 88 => ⟨S262144x100, .f32⟩
  | 89 => ⟨S262144x100, .f32⟩
  | 90 => ⟨S262144x100, .f32⟩
  | 91 => ⟨S262144x100, .f32⟩
  | 92 => ⟨S_, .f32⟩
  | 93 => ⟨S262144x100, .f32⟩
  | 94 => ⟨S262144x100, .f32⟩
  | 95 => ⟨S_, .f32⟩
  | 96 => ⟨S262144, .f32⟩
  | _ => ⟨S262144, .i32⟩

abbrev hbmTy (i : Nat) : BufTy := match i / 128 with
  | 0 => hbmTy0_0 i
  | 1 => hbmTy0_1 i
  | _ => ⟨S262144, .i32⟩

abbrev bufTy : (tb : Table) → Fin (tcTables nBuf tb) → BufTy
  | .hbm, ⟨i, _⟩ => hbmTy i
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_v12 : Ref sig .tc := ⟨.hbm, 31, rfl⟩
abbrev main_v13 : Ref sig .tc := ⟨.hbm, 32, rfl⟩
abbrev main_c_2 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_3 : Ref sig .tc := ⟨.hbm, 39, rfl⟩
abbrev main_v19 : Ref sig .tc := ⟨.hbm, 40, rfl⟩
abbrev main_v20 : Ref sig .tc := ⟨.hbm, 41, rfl⟩
abbrev main_c_4 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_5 : Ref sig .tc := ⟨.hbm, 50, rfl⟩
abbrev main_v28 : Ref sig .tc := ⟨.hbm, 51, rfl⟩
abbrev main_v29 : Ref sig .tc := ⟨.hbm, 52, rfl⟩
abbrev main_c_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst : Ref sig .tc := ⟨.hbm, 62, rfl⟩
abbrev main_v38 : Ref sig .tc := ⟨.hbm, 63, rfl⟩
abbrev main_v39 : Ref sig .tc := ⟨.hbm, 64, rfl⟩
abbrev main_c_7 : Ref sig .tc := ⟨.hbm, 65, rfl⟩
abbrev main_v40 : Ref sig .tc := ⟨.hbm, 66, rfl⟩
abbrev main_v41 : Ref sig .tc := ⟨.hbm, 67, rfl⟩
abbrev main_c_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_v47 : Ref sig .tc := ⟨.hbm, 75, rfl⟩
abbrev main_v48 : Ref sig .tc := ⟨.hbm, 76, rfl⟩
abbrev main_c_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_13 : Ref sig .tc := ⟨.hbm, 94, rfl⟩
abbrev main_v63 : Ref sig .tc := ⟨.hbm, 95, rfl⟩
abbrev main_v64 : Ref sig .tc := ⟨.hbm, 96, rfl⟩
abbrev main_c_14 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_15 : Ref sig .tc := ⟨.hbm, 106, rfl⟩
abbrev main_v73 : Ref sig .tc := ⟨.hbm, 107, rfl⟩
abbrev main_v74 : Ref sig .tc := ⟨.hbm, 108, rfl⟩
abbrev main_c_16 : Ref sig .tc := ⟨.hbm, 109, rfl⟩
abbrev main_v75 : Ref sig .tc := ⟨.hbm, 110, rfl⟩
abbrev main_v76 : Ref sig .tc := ⟨.hbm, 111, rfl⟩
abbrev main_c_17 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_c_18 : Ref sig .tc := ⟨.hbm, 118, rfl⟩
abbrev main_v82 : Ref sig .tc := ⟨.hbm, 119, rfl⟩
abbrev main_v83 : Ref sig .tc := ⟨.hbm, 120, rfl⟩
abbrev main_c_19 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_c_20 : Ref sig .tc := ⟨.hbm, 127, rfl⟩
abbrev main_v89 : Ref sig .tc := ⟨.hbm, 128, rfl⟩
abbrev main_v90 : Ref sig .tc := ⟨.hbm, 129, rfl⟩
abbrev main_c_21 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_22 : Ref sig .tc := ⟨.hbm, 138, rfl⟩
abbrev main_v98 : Ref sig .tc := ⟨.hbm, 139, rfl⟩
abbrev main_v99 : Ref sig .tc := ⟨.hbm, 140, rfl⟩
abbrev main_c_23 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_24 : Ref sig .tc := ⟨.hbm, 150, rfl⟩
abbrev main_v108 : Ref sig .tc := ⟨.hbm, 151, rfl⟩
abbrev main_v109 : Ref sig .tc := ⟨.hbm, 152, rfl⟩
abbrev main_c_25 : Ref sig .tc := ⟨.hbm, 153, rfl⟩
abbrev main_v110 : Ref sig .tc := ⟨.hbm, 154, rfl⟩
abbrev main_v111 : Ref sig .tc := ⟨.hbm, 155, rfl⟩
abbrev main_c_26 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_27 : Ref sig .tc := ⟨.hbm, 162, rfl⟩
abbrev main_v117 : Ref sig .tc := ⟨.hbm, 163, rfl⟩
abbrev main_v118 : Ref sig .tc := ⟨.hbm, 164, rfl⟩
abbrev main_c_28 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_c_29 : Ref sig .tc := ⟨.hbm, 171, rfl⟩
abbrev main_v124 : Ref sig .tc := ⟨.hbm, 172, rfl⟩
abbrev main_v125 : Ref sig .tc := ⟨.hbm, 173, rfl⟩
abbrev main_c_30 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_c_31 : Ref sig .tc := ⟨.hbm, 182, rfl⟩
abbrev main_v133 : Ref sig .tc := ⟨.hbm, 183, rfl⟩
abbrev main_v134 : Ref sig .tc := ⟨.hbm, 184, rfl⟩
abbrev main_c_32 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_33 : Ref sig .tc := ⟨.hbm, 194, rfl⟩
abbrev main_v143 : Ref sig .tc := ⟨.hbm, 195, rfl⟩
abbrev main_v144 : Ref sig .tc := ⟨.hbm, 196, rfl⟩
abbrev main_c_34 : Ref sig .tc := ⟨.hbm, 197, rfl⟩
abbrev main_v145 : Ref sig .tc := ⟨.hbm, 198, rfl⟩
abbrev main_v146 : Ref sig .tc := ⟨.hbm, 199, rfl⟩
abbrev main_c_35 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_c_36 : Ref sig .tc := ⟨.hbm, 208, rfl⟩
abbrev main_v154 : Ref sig .tc := ⟨.hbm, 209, rfl⟩
abbrev main_v155 : Ref sig .tc := ⟨.hbm, 210, rfl⟩
abbrev main_c_37 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_cst_38 : Ref sig .tc := ⟨.hbm, 220, rfl⟩
abbrev main_v164 : Ref sig .tc := ⟨.hbm, 221, rfl⟩
abbrev main_v165 : Ref sig .tc := ⟨.hbm, 222, rfl⟩
abbrev main_cst_39 : Ref sig .tc := ⟨.hbm, 223, rfl⟩
abbrev main_v166 : Ref sig .tc := ⟨.hbm, 224, rfl⟩

abbrev nD : Nat := 1
abbrev τ : Topo := Topo.v7x

variable {F : FTy → Type} [FloatOps F]

class Facts₀ : Prop where
  bcast_S262144_S1x262144_1 : S262144.BroadcastsInDim S1x262144 (![1] : Fin 1 → Fin S1x262144.rank)
  concatenates_S1x262144_S1x262144_S1x262144_S3x262144_d0 : Shape.Concatenates [S1x262144, S1x262144, S1x262144] S3x262144 0
  bcast_S3x262144_S3x262144x1_0_1 : S3x262144.BroadcastsInDim S3x262144x1 (![0, 1] : Fin 2 → Fin S3x262144x1.rank)
  bcast_S_S262144 : S_.BroadcastsInDim S262144 (![] : Fin 0 → Fin S262144.rank)
  bcast_S262144_S262144x1_0 : S262144.BroadcastsInDim S262144x1 (![0] : Fin 1 → Fin S262144x1.rank)
  bcast_S3x262144x1_S3x262144x36_0_1_2 : S3x262144x1.BroadcastsInDim S3x262144x36 (![0, 1, 2] : Fin 3 → Fin S3x262144x36.rank)
  reducesTo_S3x262144x36_S262144x36_d0 : S3x262144x36.ReducesTo [0] S262144x36
  h_S_ : 0 < S_.numel
  concatenates_S262144x64_S262144x36_S262144x100_d1 : Shape.Concatenates [S262144x64, S262144x36] S262144x100 1
  bcast_S_S262144x100 : S_.BroadcastsInDim S262144x100 (![] : Fin 0 → Fin S262144x100.rank)
  reducesTo_S262144x100_S262144_d1 : S262144x100.ReducesTo [1] S262144
  gather_S200000x64_S262144x1_S262144x64_1_0_n_n_0_1_164_wf : GatherDims.WF S200000x64 S262144x1 S262144x64 [1] [0] [] [0] [] 1 ![1, 64]
  gather_S3x200000x36_S262144x1_S3x262144x36_02_1_n_n_1_1_3136_wf : GatherDims.WF S3x200000x36 S262144x1 S3x262144x36 [0, 2] [1] [] [1] [] 1 ![3, 1, 36]
  gather_S500x100_S262144x1_S262144x100_1_0_n_n_0_1_1100_wf : GatherDims.WF S500x100 S262144x1 S262144x100 [1] [0] [] [0] [] 1 ![1, 100]

variable [Facts₀]

def gather_S200000x64_S262144x1_S262144x64_1_0_n_n_0_1_164 : GatherDims S200000x64 S262144x1 S262144x64 where
  offsetDims := [1]
  collapsedSliceDims := [0]
  operandBatchingDims := []
  startIndicesBatchingDims := []
  startIndexMap := [0]
  indexVectorDim := 1
  sliceSizes := ![1, 64]
  wf := gather_S200000x64_S262144x1_S262144x64_1_0_n_n_0_1_164_wf
def gather_S3x200000x36_S262144x1_S3x262144x36_02_1_n_n_1_1_3136 : GatherDims S3x200000x36 S262144x1 S3x262144x36 where
  offsetDims := [0, 2]
  collapsedSliceDims := [1]
  operandBatchingDims := []
  startIndicesBatchingDims := []
  startIndexMap := [1]
  indexVectorDim := 1
  sliceSizes := ![3, 1, 36]
  wf := gather_S3x200000x36_S262144x1_S3x262144x36_02_1_n_n_1_1_3136_wf
def gather_S500x100_S262144x1_S262144x100_1_0_n_n_0_1_1100 : GatherDims S500x100 S262144x1 S262144x100 where
  offsetDims := [1]
  collapsedSliceDims := [0]
  operandBatchingDims := []
  startIndicesBatchingDims := []
  startIndexMap := [0]
  indexVectorDim := 1
  sliceSizes := ![1, 100]
  wf := gather_S500x100_S262144x1_S262144x100_1_0_n_n_0_1_1100_wf

class Facts : Prop extends Facts₀ where

variable [Facts]
-- ==== Proof.KernelHost.lean ====
/-
  The program around its one region, for any float instance: the host lines before the region leave every argument
  array as launched (none of the 180 writes an argument), the region stages ten windows over the arrays the host
  lines produced, and the one reshape after it writes only the result. This module names the arrays as the region
  finds them, each window's block at a grid point, and derives the frame statement (all sixteen arguments unchanged)
  from a run that ends in the pipeline library's post.
-/
import proofs.«175527_j8306466750925_1_alg».proof.Proof.Gen.Kernel.Launch
import proofs.«175527_j8306466750925_1_alg».proof.Proof.Gen.Kernel.Skeleton
import proofs.«175527_j8306466750925_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The arrays as the region finds them -/

/-- Core `c`'s buffers when the region is entered: the launch memory after the host lines before the region. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines, the region, the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes no array a window stands on: only the flat result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-! ## The arguments are never written -/
set_option maxHeartbeats 4000000

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 10 ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg10 (by exact (by decide : ∀ w, Pipeline.arrRef spec0 w ≠ main_arg10))]
  exact V_main_arg10 m c

/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 11 ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg11 (by exact (by decide : ∀ w, Pipeline.arrRef spec0 w ≠ main_arg11))]
  exact V_main_arg11 m c

/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 12 ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg12 (by exact (by decide : ∀ w, Pipeline.arrRef spec0 w ≠ main_arg12))]
  exact V_main_arg12 m c

/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 13 ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg13 (by exact (by decide : ∀ w, Pipeline.arrRef spec0 w ≠ main_arg13))]
  exact V_main_arg13 m c

/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 14 ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg14 (by exact (by decide : ∀ w, Pipeline.arrRef spec0 w ≠ main_arg14))]
  exact V_main_arg14 m c

/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 15 ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg15 (by exact (by decide : ∀ w, Pipeline.arrRef spec0 w ≠ main_arg15))]
  exact V_main_arg15 m c

/-! ## The windows' blocks -/

/-- Window `w`'s block at grid point `t`: rows `1024·t … 1024·t + 1023` of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block of the array at every point, fetched there or carried over. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block of the array at every point, fetched there or carried over. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block of the array at every point, fetched there or carried over. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block of the array at every point, fetched there or carried over. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block of the array at every point, fetched there or carried over. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block of the array at every point, fetched there or carried over. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block of the array at every point, fetched there or carried over. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block of the array at every point, fetched there or carried over. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block of the array at every point, fetched there or carried over. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run to the library's post -/

/-- From a run ending with every window's array at what the proof data computes and every other unscoped buffer as the
    reshape leaves it, the sixteen arguments end as launched: none is a window's array, none is written. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ hr c => ⟨((hr c).2 main_arg0 (Pipeline.mem_restRefs_of main_arg0 (by decide) (by decide))).trans (W_main_arg0 m dats c),
      ((hr c).2 main_arg1 (Pipeline.mem_restRefs_of main_arg1 (by decide) (by decide))).trans (W_main_arg1 m dats c),
      ((hr c).2 main_arg2 (Pipeline.mem_restRefs_of main_arg2 (by decide) (by decide))).trans (W_main_arg2 m dats c),
      ((hr c).2 main_arg3 (Pipeline.mem_restRefs_of main_arg3 (by decide) (by decide))).trans (W_main_arg3 m dats c),
      ((hr c).2 main_arg4 (Pipeline.mem_restRefs_of main_arg4 (by decide) (by decide))).trans (W_main_arg4 m dats c),
      ((hr c).2 main_arg5 (Pipeline.mem_restRefs_of main_arg5 (by decide) (by decide))).trans (W_main_arg5 m dats c),
      ((hr c).2 main_arg6 (Pipeline.mem_restRefs_of main_arg6 (by decide) (by decide))).trans (W_main_arg6 m dats c),
      ((hr c).2 main_arg7 (Pipeline.mem_restRefs_of main_arg7 (by decide) (by decide))).trans (W_main_arg7 m dats c),
      ((hr c).2 main_arg8 (Pipeline.mem_restRefs_of main_arg8 (by decide) (by decide))).trans (W_main_arg8 m dats c),
      ((hr c).2 main_arg9 (Pipeline.mem_restRefs_of main_arg9 (by decide) (by decide))).trans (W_main_arg9 m dats c),
      ((hr c).2 main_arg10 (Pipeline.mem_restRefs_of main_arg10 (by decide) (by decide))).trans (W_main_arg10 m dats c),
      ((hr c).2 main_arg11 (Pipeline.mem_restRefs_of main_arg11 (by decide) (by decide))).trans (W_main_arg11 m dats c),
      ((hr c).2 main_arg12 (Pipeline.mem_restRefs_of main_arg12 (by decide) (by decide))).trans (W_main_arg12 m dats c),
      ((hr c).2 main_arg13 (Pipeline.mem_restRefs_of main_arg13 (by decide) (by decide))).trans (W_main_arg13 m dats c),
      ((hr c).2 main_arg14 (Pipeline.mem_restRefs_of main_arg14 (by decide) (by decide))).trans (W_main_arg14 m dats c),
      ((hr c).2 main_arg15 (Pipeline.mem_restRefs_of main_arg15 (by decide) (by decide))).trans (W_main_arg15 m dats c)⟩) h

end Cert.Kernel.Hand

end
-- ==== Proof.KernelBody.lean ====
/-
  The kernel body at one grid point, for any float instance. The body reads nine input blocks whole (two blocks of
  128 embedding columns, four blocks of 324 amplitude|frequency|phase columns, the 108 replicated time columns, two
  blocks of 100 relation columns), computes one value per row, and overwrites the whole [1024,1] output block with it.
  So the output buffer after the body is a function of the nine input blocks alone, and the input buffers are as found.
-/
import proofs.«175527_j8306466750925_1_alg».proof.Proof.Gen.Kernel.Launch
import proofs.«175527_j8306466750925_1_alg».proof.Proof.Gen.Kernel.Skeleton
import proofs.«175527_j8306466750925_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The whole-block rectangles the body loads and stores through -/

abbrev rc128 : Rect S1024x128 := Rect.unit (s := S1024x128) ![0, 0] S1024x128.size inb_S1024x128_S1024x128_0_0
abbrev rc324 : Rect S1024x324 := Rect.unit (s := S1024x324) ![0, 0] S1024x324.size inb_S1024x324_S1024x324_0_0
abbrev rc108 : Rect S1024x108 := Rect.unit (s := S1024x108) ![0, 0] S1024x108.size inb_S1024x108_S1024x108_0_0
abbrev rc100 : Rect S1024x100 := Rect.unit (s := S1024x100) ![0, 0] S1024x100.size inb_S1024x100_S1024x100_0_0
abbrev rc1 : Rect S1024x1 := Rect.unit (s := S1024x1) ![0, 0] S1024x1.size inb_S1024x1_S1024x1_0_0

/-- The score column of a block of 1024 rows, from the nine input blocks: the body's one store, whose payload is the
    row sums of half the two triple products of the four 100-wide embeddings with the two relation blocks. -/
def scoreBlk (x0 : Vec F S1024x128 .f32) (x1 : Vec F S1024x128 .f32) (x2 : Vec F S1024x324 .f32) (x3 : Vec F S1024x324 .f32) (x4 : Vec F S1024x324 .f32) (x5 : Vec F S1024x324 .f32) (x6 : Vec F S1024x108 .f32) (x7 : Vec F S1024x100 .f32) (x8 : Vec F S1024x100 .f32) : Vec F S1024x1 .f32 :=
  View.canon [⟨rc1, k0_pay1 (k0_pay2 (View.ld x0 rc128)) (k0_pay3 (View.ld x1 rc128)) (k0_pay4 (View.ld x6 rc108))
    (k0_pay5 (View.ld x6 rc108) (View.ld x2 rc324)) (k0_pay6 (View.ld x6 rc108) (View.ld x3 rc324))
    (k0_pay8 (View.ld x6 rc108) (View.ld x4 rc324)) (k0_pay9 (View.ld x6 rc108) (View.ld x4 rc324))
    (View.ld x5 rc324) (View.ld x7 rc100) (View.ld x8 rc100)⟩]

/-- The one store covers the output block. -/
theorem score_cover (p0 : Vec F S1024x1 .f32) (y : S1024x1.Idx) :
    ∃ pc ∈ ([⟨rc1, p0⟩] : List (View.Piece (Elt F) S1024x1 .f32)), y ∈ pc.1.set :=
  View.cover_of_tiled [⟨rc1, p0⟩] S1024x1.size (by rfl) y

set_option maxHeartbeats 4000000 in
/-- The body on whole staging buffers, the inputs at known contents and the output at anything, runs to a state with
    the inputs as found and the output at `scoreBlk` of the inputs. -/
theorem sound_kernel (c : Dev nD) (E : Set ℕ) (i : grid0.Coords) (a0 : Memref sig .tc .vmem S1024x128 .f32) (h0 : a0.IsWhole) (a1 : Memref sig .tc .vmem S1024x128 .f32) (h1 : a1.IsWhole) (a2 : Memref sig .tc .vmem S1024x324 .f32) (h2 : a2.IsWhole) (a3 : Memref sig .tc .vmem S1024x324 .f32) (h3 : a3.IsWhole) (a4 : Memref sig .tc .vmem S1024x324 .f32) (h4 : a4.IsWhole) (a5 : Memref sig .tc .vmem S1024x324 .f32) (h5 : a5.IsWhole) (a6 : Memref sig .tc .vmem S1024x108 .f32) (h6 : a6.IsWhole) (a7 : Memref sig .tc .vmem S1024x100 .f32) (h7 : a7.IsWhole) (a8 : Memref sig .tc .vmem S1024x100 .f32) (h8 : a8.IsWhole) (a9 : Memref sig .tc .vmem S1024x1 .f32) (h9 : a9.IsWhole)
    (x0 : Vec F S1024x128 .f32) (x1 : Vec F S1024x128 .f32) (x2 : Vec F S1024x324 .f32) (x3 : Vec F S1024x324 .f32) (x4 : Vec F S1024x324 .f32) (x5 : Vec F S1024x324 .f32) (x6 : Vec F S1024x108 .f32) (x7 : Vec F S1024x100 .f32) (x8 : Vec F S1024x100 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (scoreBlk x0 x1 x2 x3 x4 x5 x6 x7 x8)) -∗ K ⟨⟩))
      ⊢ wp frame (wpE (defs₀ (F := F)) Variants.none c none) E (cc0__kernel i a0 h0 a1 h1 a2 h2 a3 h3 a4 h4 a5 h5 a6 h6 a7 h7 a8 h8 a9 h9) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (score_cover _)

end Cert.Kernel.Hand

end
-- ==== Proof.KernelRun.lean ====
/-
  The pipeline's proof data and its run, for any float instance. After the body at grid point `t` every input window's
  staging buffer still holds rows `1024·t …` of its array, and the output window's holds the score column of those nine
  blocks; nothing is carried from point to point. With the body's triple this is the body obligation at every point, and
  the launch theorem for a region between host lines gives the run: it terminates, faults nowhere, ends with the output
  array assembled from the blocks written back and every other buffer as the host lines leave it. The sixteen
  arguments are among the latter and no host line writes them.
-/
import proofs.«175527_j8306466750925_1_alg».proof.Proof.KernelHost
import proofs.«175527_j8306466750925_1_alg».proof.Proof.KernelBody

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body each input
    buffer at its block, the output buffer at the score column of the nine blocks; the invariant is the untouched rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => scoreBlk (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_out (c : Dev nD) (t : Fin cfg0.N) : (dats m 0 c).after 9 t = scoreBlk (iblk m c 0 t) (iblk m c 1 t) (iblk m c 2 t) (iblk m c 3 t) (iblk m c 4 t) (iblk m c 5 t) (iblk m c 6 t) (iblk m c 7 t) (iblk m c 8 t) := by dsimp only [dats]

theorem before_in0 (c : Dev nD) (t : Fin cfg0.N) (d) : (dats m 0 c).before 0 t d = iblk m c 0 t :=
  before0_of m (dats m 0 c) (A_eq m c 0) (after_in0 m c) t d
theorem before_in1 (c : Dev nD) (t : Fin cfg0.N) (d) : (dats m 0 c).before 1 t d = iblk m c 1 t :=
  before1_of m (dats m 0 c) (A_eq m c 1) (after_in1 m c) t d
theorem before_in2 (c : Dev nD) (t : Fin cfg0.N) (d) : (dats m 0 c).before 2 t d = iblk m c 2 t :=
  before2_of m (dats m 0 c) (A_eq m c 2) (after_in2 m c) t d
theorem before_in3 (c : Dev nD) (t : Fin cfg0.N) (d) : (dats m 0 c).before 3 t d = iblk m c 3 t :=
  before3_of m (dats m 0 c) (A_eq m c 3) (after_in3 m c) t d
theorem before_in4 (c : Dev nD) (t : Fin cfg0.N) (d) : (dats m 0 c).before 4 t d = iblk m c 4 t :=
  before4_of m (dats m 0 c) (A_eq m c 4) (after_in4 m c) t d
theorem before_in5 (c : Dev nD) (t : Fin cfg0.N) (d) : (dats m 0 c).before 5 t d = iblk m c 5 t :=
  before5_of m (dats m 0 c) (A_eq m c 5) (after_in5 m c) t d
theorem before_in6 (c : Dev nD) (t : Fin cfg0.N) (d) : (dats m 0 c).before 6 t d = iblk m c 6 t :=
  before6_of m (dats m 0 c) (A_eq m c 6) (after_in6 m c) t d
theorem before_in7 (c : Dev nD) (t : Fin cfg0.N) (d) : (dats m 0 c).before 7 t d = iblk m c 7 t :=
  before7_of m (dats m 0 c) (A_eq m c 7) (after_in7 m c) t d
theorem before_in8 (c : Dev nD) (t : Fin cfg0.N) (d) : (dats m 0 c).before 8 t d = iblk m c 8 t :=
  before8_of m (dats m 0 c) (A_eq m c 8) (after_in8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates without a fault, with the score array assembled from the
    blocks written back and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame statement: the program runs and its sixteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (run_main m ρ)

end Cert.Kernel.Hand

end
-- ==== Proof.KernelIdealHost.lean ====
/-
  The program around its one region, for any float instance: the host lines before the region leave every argument
  array as launched (none of the 180 writes an argument), the region stages ten windows over the arrays the host
  lines produced, and the one reshape after it writes only the result. This module names the arrays as the region
  finds them, each window's block at a grid point, and derives the frame statement (all sixteen arguments unchanged)
  from a run that ends in the pipeline library's post.
-/
import proofs.«175527_j8306466750925_1_alg».proof.Proof.Gen.KernelIdeal.Launch
import proofs.«175527_j8306466750925_1_alg».proof.Proof.Gen.KernelIdeal.Skeleton
import proofs.«175527_j8306466750925_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The arrays as the region finds them -/

/-- Core `c`'s buffers when the region is entered: the launch memory after the host lines before the region. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines, the region, the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape after the region touches unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- And it writes no array a window stands on: only the flat result. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-! ## The arguments are never written -/
set_option maxHeartbeats 4000000

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 9 ends as launched. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg9 (by exact (by decide : ∀ w, Pipeline.arrRef spec0 w ≠ main_arg9))]
  exact V_main_arg9 m c

/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 10 ends as launched. -/
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg10 (by exact (by decide : ∀ w, Pipeline.arrRef spec0 w ≠ main_arg10))]
  exact V_main_arg10 m c

/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 11 ends as launched. -/
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg11 (by exact (by decide : ∀ w, Pipeline.arrRef spec0 w ≠ main_arg11))]
  exact V_main_arg11 m c

/-- No host operation before the region writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 12 ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg12 (by exact (by decide : ∀ w, Pipeline.arrRef spec0 w ≠ main_arg12))]
  exact V_main_arg12 m c

/-- No host operation before the region writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 13 ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1] c main_arg13 = m ((c : Thread nD τ).loc main_arg13) := by
  unfold Pipeline.afterTail₀
  rw [StableHlo.after_of_forall_not_mem (b := Proc.devRef .tc main_arg13) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg13 (by exact (by decide : ∀ w, Pipeline.arrRef spec0 w ≠ main_arg13))]
  exact V_main_arg13 m c

/-- No host operation before the region writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 14 ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg14 (by exact (by decide : ∀ w, Pipeline.arrRef spec0 w ≠ main_arg14))]
  exact V_main_arg14 m c

/-- No host operation before the region writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

/-- Nor does the reshape after the region: argument 15 ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1] c main_arg15 = m ((c : Thread nD τ).loc main_arg15) := by
  unfold Pipeline.afterTail₀
  rw [StableHlo.after_of_forall_not_mem (b := Proc.devRef .tc main_arg15) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.nary_writes, Finset.mem_singleton]
      exact StableHlo.devRef_ne_of_ne (by decide))),
    Pipeline.withArrays_of_ne _ c (V0 m c) _ main_arg15 (by exact (by decide : ∀ w, Pipeline.arrRef spec0 w ≠ main_arg15))]
  exact V_main_arg15 m c

/-! ## The windows' blocks -/

/-- Window `w`'s block at grid point `t`: rows `1024·t … 1024·t + 1023` of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block of the array at every point, fetched there or carried over. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block of the array at every point, fetched there or carried over. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block of the array at every point, fetched there or carried over. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block of the array at every point, fetched there or carried over. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block of the array at every point, fetched there or carried over. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block of the array at every point, fetched there or carried over. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block of the array at every point, fetched there or carried over. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block of the array at every point, fetched there or carried over. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block of the array at every point, fetched there or carried over. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run to the library's post -/

/-- From a run ending with every window's array at what the proof data computes and every other unscoped buffer as the
    reshape leaves it, the sixteen arguments end as launched: none is a window's array, none is written. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ hr c => ⟨((hr c).2 main_arg0 (Pipeline.mem_restRefs_of main_arg0 (by decide) (by decide))).trans (W_main_arg0 m dats c),
      ((hr c).2 main_arg1 (Pipeline.mem_restRefs_of main_arg1 (by decide) (by decide))).trans (W_main_arg1 m dats c),
      ((hr c).2 main_arg2 (Pipeline.mem_restRefs_of main_arg2 (by decide) (by decide))).trans (W_main_arg2 m dats c),
      ((hr c).2 main_arg3 (Pipeline.mem_restRefs_of main_arg3 (by decide) (by decide))).trans (W_main_arg3 m dats c),
      ((hr c).2 main_arg4 (Pipeline.mem_restRefs_of main_arg4 (by decide) (by decide))).trans (W_main_arg4 m dats c),
      ((hr c).2 main_arg5 (Pipeline.mem_restRefs_of main_arg5 (by decide) (by decide))).trans (W_main_arg5 m dats c),
      ((hr c).2 main_arg6 (Pipeline.mem_restRefs_of main_arg6 (by decide) (by decide))).trans (W_main_arg6 m dats c),
      ((hr c).2 main_arg7 (Pipeline.mem_restRefs_of main_arg7 (by decide) (by decide))).trans (W_main_arg7 m dats c),
      ((hr c).2 main_arg8 (Pipeline.mem_restRefs_of main_arg8 (by decide) (by decide))).trans (W_main_arg8 m dats c),
      ((hr c).2 main_arg9 (Pipeline.mem_restRefs_of main_arg9 (by decide) (by decide))).trans (W_main_arg9 m dats c),
      ((hr c).2 main_arg10 (Pipeline.mem_restRefs_of main_arg10 (by decide) (by decide))).trans (W_main_arg10 m dats c),
      ((hr c).2 main_arg11 (Pipeline.mem_restRefs_of main_arg11 (by decide) (by decide))).trans (W_main_arg11 m dats c),
      ((hr c).2 main_arg12 (Pipeline.mem_restRefs_of main_arg12 (by decide) (by decide))).trans (W_main_arg12 m dats c),
      ((hr c).2 main_arg13 (Pipeline.mem_restRefs_of main_arg13 (by decide) (by decide))).trans (W_main_arg13 m dats c),
      ((hr c).2 main_arg14 (Pipeline.mem_restRefs_of main_arg14 (by decide) (by decide))).trans (W_main_arg14 m dats c),
      ((hr c).2 main_arg15 (Pipeline.mem_restRefs_of main_arg15 (by decide) (by decide))).trans (W_main_arg15 m dats c)⟩) h

end Cert.KernelIdeal.Hand

end
-- ==== Proof.KernelIdealBody.lean ====
/-
  The kernel body at one grid point, for any float instance. The body reads nine input blocks whole (two blocks of
  128 embedding columns, four blocks of 324 amplitude|frequency|phase columns, the 108 replicated time columns, two
  blocks of 100 relation columns), computes one value per row, and overwrites the whole [1024,1] output block with it.
  So the output buffer after the body is a function of the nine input blocks alone, and the input buffers are as found.
-/
import proofs.«175527_j8306466750925_1_alg».proof.Proof.Gen.KernelIdeal.Launch
import proofs.«175527_j8306466750925_1_alg».proof.Proof.Gen.KernelIdeal.Skeleton
import proofs.«175527_j8306466750925_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The whole-block rectangles the body loads and stores through -/

abbrev rc128 : Rect S1024x128 := Rect.unit (s := S1024x128) ![0, 0] S1024x128.size inb_S1024x128_S1024x128_0_0
abbrev rc324 : Rect S1024x324 := Rect.unit (s := S1024x324) ![0, 0] S1024x324.size inb_S1024x324_S1024x324_0_0
abbrev rc108 : Rect S1024x108 := Rect.unit (s := S1024x108) ![0, 0] S1024x108.size inb_S1024x108_S1024x108_0_0
abbrev rc100 : Rect S1024x100 := Rect.unit (s := S1024x100) ![0, 0] S1024x100.size inb_S1024x100_S1024x100_0_0
abbrev rc1 : Rect S1024x1 := Rect.unit (s := S1024x1) ![0, 0] S1024x1.size inb_S1024x1_S1024x1_0_0

/-- The score column of a block of 1024 rows, from the nine input blocks: the body's one store, whose payload is the
    row sums of half the two triple products of the four 100-wide embeddings with the two relation blocks. -/
def scoreBlk (x0 : Vec F S1024x128 .f32) (x1 : Vec F S1024x128 .f32) (x2 : Vec F S1024x324 .f32) (x3 : Vec F S1024x324 .f32) (x4 : Vec F S1024x324 .f32) (x5 : Vec F S1024x324 .f32) (x6 : Vec F S1024x108 .f32) (x7 : Vec F S1024x100 .f32) (x8 : Vec F S1024x100 .f32) : Vec F S1024x1 .f32 :=
  View.canon [⟨rc1, k0_pay1 (k0_pay2 (View.ld x0 rc128)) (k0_pay3 (View.ld x1 rc128)) (k0_pay4 (View.ld x6 rc108))
    (k0_pay5 (View.ld x6 rc108) (View.ld x2 rc324)) (k0_pay6 (View.ld x6 rc108) (View.ld x3 rc324))
    (k0_pay8 (View.ld x6 rc108) (View.ld x4 rc324)) (k0_pay9 (View.ld x6 rc108) (View.ld x4 rc324))
    (View.ld x5 rc324) (View.ld x7 rc100) (View.ld x8 rc100)⟩]

/-- The one store covers the output block. -/
theorem score_cover (p0 : Vec F S1024x1 .f32) (y : S1024x1.Idx) :
    ∃ pc ∈ ([⟨rc1, p0⟩] : List (View.Piece (Elt F) S1024x1 .f32)), y ∈ pc.1.set :=
  View.cover_of_tiled [⟨rc1, p0⟩] S1024x1.size (by rfl) y

set_option maxHeartbeats 4000000 in
/-- The body on whole staging buffers, the inputs at known contents and the output at anything, runs to a state with
    the inputs as found and the output at `scoreBlk` of the inputs. -/
theorem sound_kernel (c : Dev nD) (E : Set ℕ) (i : grid0.Coords) (a0 : Memref sig .tc .vmem S1024x128 .f32) (h0 : a0.IsWhole) (a1 : Memref sig .tc .vmem S1024x128 .f32) (h1 : a1.IsWhole) (a2 : Memref sig .tc .vmem S1024x324 .f32) (h2 : a2.IsWhole) (a3 : Memref sig .tc .vmem S1024x324 .f32) (h3 : a3.IsWhole) (a4 : Memref sig .tc .vmem S1024x324 .f32) (h4 : a4.IsWhole) (a5 : Memref sig .tc .vmem S1024x324 .f32) (h5 : a5.IsWhole) (a6 : Memref sig .tc .vmem S1024x108 .f32) (h6 : a6.IsWhole) (a7 : Memref sig .tc .vmem S1024x100 .f32) (h7 : a7.IsWhole) (a8 : Memref sig .tc .vmem S1024x100 .f32) (h8 : a8.IsWhole) (a9 : Memref sig .tc .vmem S1024x1 .f32) (h9 : a9.IsWhole)
    (x0 : Vec F S1024x128 .f32) (x1 : Vec F S1024x128 .f32) (x2 : Vec F S1024x324 .f32) (x3 : Vec F S1024x324 .f32) (x4 : Vec F S1024x324 .f32) (x5 : Vec F S1024x324 .f32) (x6 : Vec F S1024x108 .f32) (x7 : Vec F S1024x100 .f32) (x8 : Vec F S1024x100 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare (scoreBlk x0 x1 x2 x3 x4 x5 x6 x7 x8)) -∗ K ⟨⟩))
      ⊢ wp frame (wpE (defs₀ (F := F)) Variants.none c none) E (cc0__kernel i a0 h0 a1 h1 a2 h2 a3 h3 a4 h4 a5 h5 a6 h6 a7 h7 a8 h8 a9 h9) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (score_cover _)

end Cert.KernelIdeal.Hand

end
-- ==== Proof.KernelIdealRun.lean ====
/-
  The pipeline's proof data and its run, for any float instance. After the body at grid point `t` every input window's
  staging buffer still holds rows `1024·t …` of its array, and the output window's holds the score column of those nine
  blocks; nothing is carried from point to point. With the body's triple this is the body obligation at every point, and
  the launch theorem for a region between host lines gives the run: it terminates, faults nowhere, ends with the output
  array assembled from the blocks written back and every other buffer as the host lines leave it. The sixteen
  arguments are among the latter and no host line writes them.
-/
import proofs.«175527_j8306466750925_1_alg».proof.Proof.KernelIdealHost
import proofs.«175527_j8306466750925_1_alg».proof.Proof.KernelIdealBody

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline on core `c`: the arrays as the region finds them; after the body each input
    buffer at its block, the output buffer at the score column of the nine blocks; the invariant is the untouched rest;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => scoreBlk (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_in8 (c : Dev nD) (t : Fin cfg0.N) : (dats m 0 c).after 8 t = iblk m c 8 t := by dsimp only [dats]
theorem after_out (c : Dev nD) (t : Fin cfg0.N) : (dats m 0 c).after 9 t = scoreBlk (iblk m c 0 t) (iblk m c 1 t) (iblk m c 2 t) (iblk m c 3 t) (iblk m c 4 t) (iblk m c 5 t) (iblk m c 6 t) (iblk m c 7 t) (iblk m c 8 t) := by dsimp only [dats]

theorem before_in0 (c : Dev nD) (t : Fin cfg0.N) (d) : (dats m 0 c).before 0 t d = iblk m c 0 t :=
  before0_of m (dats m 0 c) (A_eq m c 0) (after_in0 m c) t d
theorem before_in1 (c : Dev nD) (t : Fin cfg0.N) (d) : (dats m 0 c).before 1 t d = iblk m c 1 t :=
  before1_of m (dats m 0 c) (A_eq m c 1) (after_in1 m c) t d
theorem before_in2 (c : Dev nD) (t : Fin cfg0.N) (d) : (dats m 0 c).before 2 t d = iblk m c 2 t :=
  before2_of m (dats m 0 c) (A_eq m c 2) (after_in2 m c) t d
theorem before_in3 (c : Dev nD) (t : Fin cfg0.N) (d) : (dats m 0 c).before 3 t d = iblk m c 3 t :=
  before3_of m (dats m 0 c) (A_eq m c 3) (after_in3 m c) t d
theorem before_in4 (c : Dev nD) (t : Fin cfg0.N) (d) : (dats m 0 c).before 4 t d = iblk m c 4 t :=
  before4_of m (dats m 0 c) (A_eq m c 4) (after_in4 m c) t d
theorem before_in5 (c : Dev nD) (t : Fin cfg0.N) (d) : (dats m 0 c).before 5 t d = iblk m c 5 t :=
  before5_of m (dats m 0 c) (A_eq m c 5) (after_in5 m c) t d
theorem before_in6 (c : Dev nD) (t : Fin cfg0.N) (d) : (dats m 0 c).before 6 t d = iblk m c 6 t :=
  before6_of m (dats m 0 c) (A_eq m c 6) (after_in6 m c) t d
theorem before_in7 (c : Dev nD) (t : Fin cfg0.N) (d) : (dats m 0 c).before 7 t d = iblk m c 7 t :=
  before7_of m (dats m 0 c) (A_eq m c 7) (after_in7 m c) t d
theorem before_in8 (c : Dev nD) (t : Fin cfg0.N) (d) : (dats m 0 c).before 8 t d = iblk m c 8 t :=
  before8_of m (dats m 0 c) (A_eq m c 8) (after_in8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 4000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_in8, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates without a fault, with the score array assembled from the
    blocks written back and every other unscoped buffer as the reshape after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame statement: the program runs and its sixteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (run_main m ρ)

end Cert.KernelIdeal.Hand

end
-- ==== Proof.LibGatherRows.lean ====
/-
  A gather of whole rows of a matrix, and of entries of a vector, by one index per row of an [M, 1] index array,
  read at an index.

  ROWS: operand [N, C], indices [M, 1], result [M, C]: entry (e, j) is the operand at (clamp (idx e), j).
  ENTRIES: operand [N], the same indices, result [M]: entry e is the operand at clamp (idx e).
  In both the index word is read signed and clamped into [0, N − 1] (a negative word to 0), the same clamp for the
  two layouts: a row gathered from a matrix and an entry gathered from a vector by one index array come from one row.
-/
import Idealize.ShloMosaic.Lib.ValueIdx

namespace Cert.Lib

open Idealize.ShloMosaic Idealize.ShloMosaic.ValueIdx

variable {N M C w : Nat} {α : Type}

/-- The row the index word of entry `e` names, read signed and clamped into the operand. -/
def clampRow (N : Nat) (hN : 0 < N) (idx : IVec ⟨2, ![M, 1]⟩ w) (e : Fin M) : Fin N :=
  ⟨min (idx (ix2 e (0 : Fin 1))).toInt.toNat (N - 1), by omega⟩

/-- A word that is a row number, read signed, clamps to that row. -/
theorem clampRow_of_toInt (hN : 0 < N) (idx : IVec ⟨2, ![M, 1]⟩ w) (e : Fin M) (p : Fin N)
    (h : (idx (ix2 e (0 : Fin 1))).toInt = (p.val : Int)) : clampRow N hN idx e = p := by
  apply Fin.ext
  show min (idx (ix2 e (0 : Fin 1))).toInt.toNat (N - 1) = p.val
  rw [h, Int.toNat_natCast]
  have := p.isLt
  omega

/-- The clamped row depends only on the index words. -/
theorem clampRow_congr (hN : 0 < N) (idx idx' : IVec ⟨2, ![M, 1]⟩ w) (e : Fin M)
    (h : idx (ix2 e (0 : Fin 1)) = idx' (ix2 e (0 : Fin 1))) : clampRow N hN idx e = clampRow N hN idx' e := by
  apply Fin.ext
  show min (idx (ix2 e (0 : Fin 1))).toInt.toNat (N - 1) = min (idx' (ix2 e (0 : Fin 1))).toInt.toNat (N - 1)
  rw [h]

/-- The dimension numbers of a gather of whole rows, as a record over given sizes. -/
abbrev rowDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem rowDims_gather_apply (hN : 0 < N) (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowDims N M C wf) x idx (ix2 e j) = x (ix2 (clampRow N hN idx e) j) := by
  unfold Host.gather
  congr 1
  funext a
  refine Fin.ext ?_
  match a with
  | ⟨0, _⟩ =>
    show (rowDims N M C wf).start (ix2 e j) idx 0 + (rowDims N M C wf).batchCoord (ix2 e j) 0 + (rowDims N M C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M C wf).startIndexMap from List.mem_singleton.mpr rfl)]
    have hsi : (rowDims N M C wf).siIdx (ix2 e j) ⟨List.idxOf (0 : Fin 2) (rowDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N M C wf).start (ix2 e j) idx 1 + (rowDims N M C wf).batchCoord (ix2 e j) 1 + (rowDims N M C wf).offCoord (ix2 e j) 1 = j.val
    rw [GatherDims.batchCoord_eq_zero _ _ _ List.not_mem_nil]
    unfold GatherDims.start GatherDims.offCoord
    rw [dif_neg (show ¬ (1 : Fin 2) ∈ (rowDims N M C wf).startIndexMap from (by decide : ¬ (1 : Fin 2) ∈ ([0] : List (Fin 2)))),
      dif_pos (show (1 : Fin 2) ∈ (rowDims N M C wf).sKept from
        (by decide : (1 : Fin 2) ∈ (List.finRange 2).filter (· ∉ (([0] : List (Fin 2)) ++ []))))]
    simp only [Nat.zero_add, Nat.add_zero]
    rfl

theorem vecDims_gather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN idx e)) := by
  unfold Host.gather
  congr 1
  funext a
  refine Fin.ext ?_
  match a with
  | ⟨0, _⟩ =>
    show (vecDims N M wf).start (ix1 e) idx 0 + (vecDims N M wf).batchCoord (ix1 e) 0 + (vecDims N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N M wf).startIndexMap from List.mem_singleton.mpr rfl)]
    have hsi : (vecDims N M wf).siIdx (ix1 e) ⟨List.idxOf (0 : Fin 1) (vecDims N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The dimension numbers of a gather of whole rows. -/
structure IsRowGather (d : GatherDims ⟨2, ![N, C]⟩ ⟨2, ![M, 1]⟩ ⟨2, ![M, C]⟩) : Prop where
  od : d.offsetDims = [1]
  cs : d.collapsedSliceDims = [0]
  ob : d.operandBatchingDims = []
  sb : d.startIndicesBatchingDims = []
  sm : d.startIndexMap = [0]
  iv : d.indexVectorDim = 1
  ss : d.sliceSizes = ![1, C]

/-- The dimension numbers of a gather of entries of a vector. -/
structure IsVecGather (d : GatherDims ⟨1, ![N]⟩ ⟨2, ![M, 1]⟩ ⟨1, ![M]⟩) : Prop where
  od : d.offsetDims = []
  cs : d.collapsedSliceDims = [0]
  ob : d.operandBatchingDims = []
  sb : d.startIndicesBatchingDims = []
  sm : d.startIndexMap = [0]
  iv : d.indexVectorDim = 1
  ss : d.sliceSizes = ![1]

/-- A gather of rows read at (e, j): the operand at (the clamped row idx e, j). -/
theorem row_gather_apply (hN : 0 < N) (d : GatherDims ⟨2, ![N, C]⟩ ⟨2, ![M, 1]⟩ ⟨2, ![M, C]⟩) (hd : IsRowGather d)
    (x : (⟨2, ![N, C]⟩ : Shape).Idx → α) (idx : IVec ⟨2, ![M, 1]⟩ w) (e : Fin M) (j : Fin C) :
    Host.gather d x idx (ix2 e j) = x (ix2 (clampRow N hN idx e) j) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact rowDims_gather_apply hN wf x idx e j

/-- A gather of entries read at e: the operand at the clamped index idx e. -/
theorem vec_gather_apply (hN : 0 < N) (d : GatherDims ⟨1, ![N]⟩ ⟨2, ![M, 1]⟩ ⟨1, ![M]⟩) (hd : IsVecGather d)
    (x : (⟨1, ![N]⟩ : Shape).Idx → α) (idx : IVec ⟨2, ![M, 1]⟩ w) (e : Fin M) :
    Host.gather d x idx (ix1 e) = x (ix1 (clampRow N hN idx e)) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact vecDims_gather_apply hN wf x idx e

end Cert.Lib
-- ==== Proof.ScoreSpec.lean ====
/-
  The score of one batch row, as one function of the argument arrays over the extended reals.

  For batch row b let rs, ro, rr be the table rows the subject, object and relation index words name (read signed, a
  negative word wrapped by the table's height, then clamped into the table), and t = (year, month, day) of row b.
  An entity's 100-wide embedding at a row is its 64 static columns followed by 36 time columns, column q of which is
      (A₀ sin(F₀ t₀ + P₀) + A₁ sin(F₁ t₁ + P₁)) + A₂ sin(F₂ t₂ + P₂)
  with A, F, P the amplitude, frequency and phase tables at (k, row, q). The score is
      Σ_{j<100} (s_s(j) · r_f(j) · o_o(j) + o_s(j) · r_i(j) · s_o(j)) · ½ ,
  s_s / s_o the subject row's embedding from the two table families, o_s / o_o the object row's.
-/
import Idealize.ShloMosaic.PureOps.Ideal
import Idealize.ShloMosaic.Lib.ValueIdx
import proofs.«175527_j8306466750925_1_alg».proof.Proof.LibGatherRows

noncomputable section

namespace Cert.Score

open Idealize.ShloMosaic Idealize.ShloMosaic.ValueIdx Cert.Lib

/-- One time column: three sinusoids, added left to right. -/
def tEmb (A Fq P tk : Fin 3 → EReal) : EReal :=
  (A 0 * Ideal.sin (Fq 0 * tk 0 + P 0) + A 1 * Ideal.sin (Fq 1 * tk 1 + P 1)) + A 2 * Ideal.sin (Fq 2 * tk 2 + P 2)

/-- 64 static columns followed by 36 time columns. -/
def emb100 (e : Fin 64 → EReal) (te : Fin 36 → EReal) (j : Fin 100) : EReal :=
  if h : j.val < 64 then e ⟨j.val, h⟩ else te ⟨j.val - 64, by have := j.isLt; omega⟩

/-- The constant one half, as the programs spell it. -/
def half : EReal := Ideal.ofBits .f32 0x3F000000#32

/-- The score of a row from its four embeddings and two relation rows. -/
def rowScore (ss so os oo rf ri : Fin 100 → EReal) : EReal :=
  ∑ j : Fin 100, (ss j * rf j * oo j + os j * ri j * so j) * half

/-- The index words as both programs normalise them before a gather: a negative word wrapped by the table's height
    `n`, laid out as a column. -/
def normIdx (n : BitVec 32) (s : IVec ⟨1, ![262144]⟩ 32) : IVec ⟨2, ![262144, 1]⟩ 32 :=
  broadcastInDim ⟨2, ![262144, 1]⟩ ![0] (by decide)
    (select (cmpi .slt s (broadcastInDim ⟨1, ![262144]⟩ ![] (by decide) (constantI ⟨0, ![]⟩ 32 0#32)))
      (addi s (broadcastInDim ⟨1, ![262144]⟩ ![] (by decide) (constantI ⟨0, ![]⟩ 32 n))) s)

/-- The (year, month, day) of batch row b. -/
def tk (y mth d : FVec Ideal ⟨1, ![262144]⟩ .f32) (b : Fin 262144) : Fin 3 → EReal := ![y (ix1 b), mth (ix1 b), d (ix1 b)]

/-- The time columns of a table family at a row. -/
def tEmbAt (A Fq P : FVec Ideal ⟨3, ![3, 200000, 36]⟩ .f32) (row : Fin 200000) (t : Fin 3 → EReal) (q : Fin 36) : EReal :=
  tEmb (fun k => A (ix3 k row q)) (fun k => Fq (ix3 k row q)) (fun k => P (ix3 k row q)) t

/-- An entity's embedding at a row. -/
def embAt (E : FVec Ideal ⟨2, ![200000, 64]⟩ .f32) (A Fq P : FVec Ideal ⟨3, ![3, 200000, 36]⟩ .f32) (row : Fin 200000)
    (t : Fin 3 → EReal) : Fin 100 → EReal :=
  emb100 (fun j => E (ix2 row j)) (tEmbAt A Fq P row t)

/-- The score of batch row b, from the three index arrays (as [B, 1] arrays of words) and the thirteen float arrays. -/
def score (idxS idxR idxO : IVec ⟨2, ![262144, 1]⟩ 32) (y mth d : FVec Ideal ⟨1, ![262144]⟩ .f32)
    (es eo : FVec Ideal ⟨2, ![200000, 64]⟩ .f32) (as fs ps ao fo po : FVec Ideal ⟨3, ![3, 200000, 36]⟩ .f32)
    (rf ri : FVec Ideal ⟨2, ![500, 100]⟩ .f32) (b : Fin 262144) : EReal :=
  rowScore
    (embAt es as fs ps (clampRow 200000 (by decide) idxS b) (tk y mth d b))
    (embAt eo ao fo po (clampRow 200000 (by decide) idxS b) (tk y mth d b))
    (embAt es as fs ps (clampRow 200000 (by decide) idxO b) (tk y mth d b))
    (embAt eo ao fo po (clampRow 200000 (by decide) idxO b) (tk y mth d b))
    (fun j => rf (ix2 (clampRow 500 (by decide) idxR b) j))
    (fun j => ri (ix2 (clampRow 500 (by decide) idxR b) j))

/-- The whole score array from the sixteen arguments. -/
def scores (s r o : IVec ⟨1, ![262144]⟩ 32) (y mth d : FVec Ideal ⟨1, ![262144]⟩ .f32)
    (es eo : FVec Ideal ⟨2, ![200000, 64]⟩ .f32) (as fs ps ao fo po : FVec Ideal ⟨3, ![3, 200000, 36]⟩ .f32)
    (rf ri : FVec Ideal ⟨2, ![500, 100]⟩ .f32) : FVec Ideal ⟨1, ![262144]⟩ .f32 :=
  fun i => score (normIdx 200000#32 s) (normIdx 500#32 r) (normIdx 200000#32 o) y mth d es eo as fs ps ao fo po rf ri (i 0)

end Cert.Score

end
-- ==== Proof.LibConcatCols.lean ====
/-
  Concatenations of matrices read at an entry.

  Side by side (along the columns): two blocks [a, n₁] | [a, n₂], and three blocks [a, n₁] | [a, n₂] | [a, n₃]; entry
  (p, j) of the result is entry (p, j − the widths before it) of the block whose span holds column j.
  One under another (along the rows): three blocks of [r₁, b], [r₂, b], [r₃, b] rows.
-/
import Idealize.ShloMosaic.Lib.Pipeline.Value
import Idealize.ShloMosaic.Lib.ValueIdx

namespace Cert.Lib

open Idealize.ShloMosaic Idealize.ShloMosaic.ValueIdx

variable {α : Type} {a n n₁ n₂ n₃ : Nat}

/-- Two blocks side by side, read in the left block. -/
theorem concat2_cols_left (x : (⟨2, ![a, n₁]⟩ : Shape).Idx → α) (y : (⟨2, ![a, n₂]⟩ : Shape).Idx → α)
    (h : Shape.Concatenates [⟨2, ![a, n₁]⟩, ⟨2, ![a, n₂]⟩] ⟨2, ![a, n]⟩ 1) (p : Fin a) (j : Fin n) (q : Fin n₁)
    (hq : q.val = j.val) :
    concatenate ⟨2, ![a, n]⟩ 1 [⟨⟨2, ![a, n₁]⟩, x⟩, ⟨⟨2, ![a, n₂]⟩, y⟩] h (ix2 p j) = x (ix2 p q) :=
  concatenate_apply_piece (t := ⟨2, ![a, n]⟩) 1 [⟨⟨2, ![a, n₁]⟩, x⟩, ⟨⟨2, ![a, n₂]⟩, y⟩] h (ix2 p j) 0 (by simp) _ x rfl rfl 0 rfl (ix2 p q)
    (fun b hb => by
      match b with
      | ⟨0, _⟩ => rfl
      | ⟨1, _⟩ => exact absurd rfl hb)
    (by show 0 + q.val = j.val; omega)

/-- Two blocks side by side, read in the right block. -/
theorem concat2_cols_right (x : (⟨2, ![a, n₁]⟩ : Shape).Idx → α) (y : (⟨2, ![a, n₂]⟩ : Shape).Idx → α)
    (h : Shape.Concatenates [⟨2, ![a, n₁]⟩, ⟨2, ![a, n₂]⟩] ⟨2, ![a, n]⟩ 1) (p : Fin a) (j : Fin n) (q : Fin n₂)
    (hq : n₁ + q.val = j.val) :
    concatenate ⟨2, ![a, n]⟩ 1 [⟨⟨2, ![a, n₁]⟩, x⟩, ⟨⟨2, ![a, n₂]⟩, y⟩] h (ix2 p j) = y (ix2 p q) :=
  concatenate_apply_piece (t := ⟨2, ![a, n]⟩) 1 [⟨⟨2, ![a, n₁]⟩, x⟩, ⟨⟨2, ![a, n₂]⟩, y⟩] h (ix2 p j) 1 (by simp) _ y rfl rfl n₁
    (by simp) (ix2 p q)
    (fun b hb => by
      match b with
      | ⟨0, _⟩ => rfl
      | ⟨1, _⟩ => exact absurd rfl hb)
    (by show n₁ + q.val = j.val; omega)

/-- Three blocks side by side, read in the first. -/
theorem concat3_cols_fst (x : (⟨2, ![a, n₁]⟩ : Shape).Idx → α) (y : (⟨2, ![a, n₂]⟩ : Shape).Idx → α) (z : (⟨2, ![a, n₃]⟩ : Shape).Idx → α)
    (h : Shape.Concatenates [⟨2, ![a, n₁]⟩, ⟨2, ![a, n₂]⟩, ⟨2, ![a, n₃]⟩] ⟨2, ![a, n]⟩ 1) (p : Fin a) (j : Fin n) (q : Fin n₁)
    (hq : q.val = j.val) :
    concatenate ⟨2, ![a, n]⟩ 1 [⟨⟨2, ![a, n₁]⟩, x⟩, ⟨⟨2, ![a, n₂]⟩, y⟩, ⟨⟨2, ![a, n₃]⟩, z⟩] h (ix2 p j) = x (ix2 p q) :=
  concatenate_apply_piece (t := ⟨2, ![a, n]⟩) 1 [⟨⟨2, ![a, n₁]⟩, x⟩, ⟨⟨2, ![a, n₂]⟩, y⟩, ⟨⟨2, ![a, n₃]⟩, z⟩] h (ix2 p j) 0 (by simp) _ x rfl rfl 0 rfl (ix2 p q)
    (fun b hb => by
      match b with
      | ⟨0, _⟩ => rfl
      | ⟨1, _⟩ => exact absurd rfl hb)
    (by show 0 + q.val = j.val; omega)

/-- Three blocks side by side, read in the second. -/
theorem concat3_cols_snd (x : (⟨2, ![a, n₁]⟩ : Shape).Idx → α) (y : (⟨2, ![a, n₂]⟩ : Shape).Idx → α) (z : (⟨2, ![a, n₃]⟩ : Shape).Idx → α)
    (h : Shape.Concatenates [⟨2, ![a, n₁]⟩, ⟨2, ![a, n₂]⟩, ⟨2, ![a, n₃]⟩] ⟨2, ![a, n]⟩ 1) (p : Fin a) (j : Fin n) (q : Fin n₂)
    (hq : n₁ + q.val = j.val) :
    concatenate ⟨2, ![a, n]⟩ 1 [⟨⟨2, ![a, n₁]⟩, x⟩, ⟨⟨2, ![a, n₂]⟩, y⟩, ⟨⟨2, ![a, n₃]⟩, z⟩] h (ix2 p j) = y (ix2 p q) :=
  concatenate_apply_piece (t := ⟨2, ![a, n]⟩) 1 [⟨⟨2, ![a, n₁]⟩, x⟩, ⟨⟨2, ![a, n₂]⟩, y⟩, ⟨⟨2, ![a, n₃]⟩, z⟩] h (ix2 p j) 1 (by simp) _ y rfl rfl n₁
    (by simp) (ix2 p q)
    (fun b hb => by
      match b with
      | ⟨0, _⟩ => rfl
      | ⟨1, _⟩ => exact absurd rfl hb)
    (by show n₁ + q.val = j.val; omega)

/-- Three blocks side by side, read in the third. -/
theorem concat3_cols_thd (x : (⟨2, ![a, n₁]⟩ : Shape).Idx → α) (y : (⟨2, ![a, n₂]⟩ : Shape).Idx → α) (z : (⟨2, ![a, n₃]⟩ : Shape).Idx → α)
    (h : Shape.Concatenates [⟨2, ![a, n₁]⟩, ⟨2, ![a, n₂]⟩, ⟨2, ![a, n₃]⟩] ⟨2, ![a, n]⟩ 1) (p : Fin a) (j : Fin n) (q : Fin n₃)
    (hq : n₁ + n₂ + q.val = j.val) :
    concatenate ⟨2, ![a, n]⟩ 1 [⟨⟨2, ![a, n₁]⟩, x⟩, ⟨⟨2, ![a, n₂]⟩, y⟩, ⟨⟨2, ![a, n₃]⟩, z⟩] h (ix2 p j) = z (ix2 p q) :=
  concatenate_apply_piece (t := ⟨2, ![a, n]⟩) 1 [⟨⟨2, ![a, n₁]⟩, x⟩, ⟨⟨2, ![a, n₂]⟩, y⟩, ⟨⟨2, ![a, n₃]⟩, z⟩] h (ix2 p j) 2 (by simp) _ z rfl rfl (n₁ + n₂)
    (by simp) (ix2 p q)
    (fun b hb => by
      match b with
      | ⟨0, _⟩ => rfl
      | ⟨1, _⟩ => exact absurd rfl hb)
    (by show n₁ + n₂ + q.val = j.val; omega)

variable {b r₁ r₂ r₃ : Nat}

/-- Three blocks one under another, read in block `k` (of one row each when the blocks are rows). -/
theorem concat3_rows_one (x y z : (⟨2, ![1, b]⟩ : Shape).Idx → α)
    (h : Shape.Concatenates [⟨2, ![1, b]⟩, ⟨2, ![1, b]⟩, ⟨2, ![1, b]⟩] ⟨2, ![3, b]⟩ 0) (k : Fin 3) (e : Fin b) :
    concatenate ⟨2, ![3, b]⟩ 0 [⟨⟨2, ![1, b]⟩, x⟩, ⟨⟨2, ![1, b]⟩, y⟩, ⟨⟨2, ![1, b]⟩, z⟩] h (ix2 k e)
      = (![x, y, z] k) (ix2 (0 : Fin 1) e) := by
  match k with
  | ⟨0, _⟩ =>
    exact concatenate_apply_piece (t := ⟨2, ![3, b]⟩) 0 [⟨⟨2, ![1, b]⟩, x⟩, ⟨⟨2, ![1, b]⟩, y⟩, ⟨⟨2, ![1, b]⟩, z⟩] h (ix2 _ e) 0 (by simp) _ x rfl rfl 0 rfl (ix2 0 e)
      (fun c hc => by
        match c with
        | ⟨0, _⟩ => exact absurd rfl hc
        | ⟨1, _⟩ => rfl) rfl
  | ⟨1, _⟩ =>
    exact concatenate_apply_piece (t := ⟨2, ![3, b]⟩) 0 [⟨⟨2, ![1, b]⟩, x⟩, ⟨⟨2, ![1, b]⟩, y⟩, ⟨⟨2, ![1, b]⟩, z⟩] h (ix2 _ e) 1 (by simp) _ y rfl rfl 1 (by simp) (ix2 0 e)
      (fun c hc => by
        match c with
        | ⟨0, _⟩ => exact absurd rfl hc
        | ⟨1, _⟩ => rfl) rfl
  | ⟨2, _⟩ =>
    exact concatenate_apply_piece (t := ⟨2, ![3, b]⟩) 0 [⟨⟨2, ![1, b]⟩, x⟩, ⟨⟨2, ![1, b]⟩, y⟩, ⟨⟨2, ![1, b]⟩, z⟩] h (ix2 _ e) 2 (by simp) _ z rfl rfl 2 (by simp) (ix2 0 e)
      (fun c hc => by
        match c with
        | ⟨0, _⟩ => exact absurd rfl hc
        | ⟨1, _⟩ => rfl) rfl

end Cert.Lib
-- ==== Proof.KernelIdealPay.lean ====
/-
  The body's score column at a row of its block, at the exact instance.

  Row p of the output block depends only on row p of each of the nine input blocks. A family block's 324 columns are
  108 amplitudes, 108 frequencies, 108 phases; against the 108 replicated time columns they give 108 sinusoids
  amplitude · sin(frequency · time + phase), and the 36 time columns are the three 36-wide thirds of these added left to
  right. An embedding is 64 columns of an embedding block (its left or its right half) followed by those 36; the score is
  the sum over the 100 columns of half the sum of the two triple products.
-/
import proofs.«175527_j8306466750925_1_alg».proof.Proof.KernelIdealBody
import proofs.«175527_j8306466750925_1_alg».proof.Proof.ScoreSpec
import proofs.«175527_j8306466750925_1_alg».proof.Proof.LibConcatCols
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.ValueIdx Cert.Lib Cert.Score
open Cert.KernelIdeal Cert.KernelIdeal.Gen

/-- Sinusoid i of a row: amplitude i times the sine of frequency i times time i plus phase i. -/
def wave (f : Fin 324 → EReal) (tr : Fin 108 → EReal) (i : Fin 108) : EReal :=
  f ⟨i.val, by omega⟩ * Ideal.sin (f ⟨108 + i.val, by omega⟩ * tr i + f ⟨216 + i.val, by omega⟩)

/-- Time column q of a row: the three thirds of the sinusoids, added left to right. -/
def waveSum (f : Fin 324 → EReal) (tr : Fin 108 → EReal) (q : Fin 36) : EReal :=
  (wave f tr ⟨q.val, by omega⟩ + wave f tr ⟨36 + q.val, by omega⟩) + wave f tr ⟨72 + q.val, by omega⟩

/-- The score of a row from its nine input rows. -/
def rowOf (e0 e1 : Fin 128 → EReal) (f2 f3 f4 f5 : Fin 324 → EReal) (tr : Fin 108 → EReal) (rf ri : Fin 100 → EReal) : EReal :=
  rowScore (emb100 (fun j => e0 ⟨0 + j.val, by omega⟩) (waveSum f2 tr)) (emb100 (fun j => e0 ⟨64 + j.val, by omega⟩) (waveSum f3 tr))
    (emb100 (fun j => e1 ⟨0 + j.val, by omega⟩) (waveSum f4 tr)) (emb100 (fun j => e1 ⟨64 + j.val, by omega⟩) (waveSum f5 tr)) rf ri

theorem hz : (![0, 0] : Fin 2 → Nat) = fun _ => 0 := funext fun a => by fin_cases a <;> rfl

/-- The 108 sinusoids of a family block against the time block. -/
def waves (fam : FVec Ideal S1024x324 .f32) (trep : FVec Ideal S1024x108 .f32) : FVec Ideal S1024x108 .f32 :=
  mulf (extractStridedSlice S1024x108 ![0, 0] fam slices_S1024x324_o0_0_S1024x108)
    (sin (addf (mulf (extractStridedSlice S1024x108 ![0, 108] fam slices_S1024x324_o0_108_S1024x108) trep)
      (extractStridedSlice S1024x108 ![0, 216] fam slices_S1024x324_o0_216_S1024x108)))

theorem waves_apply (fam : FVec Ideal S1024x324 .f32) (trep : FVec Ideal S1024x108 .f32) (p : Fin 1024) (i : Fin 108) :
    waves fam trep (ix2 p i) = wave (fun j => fam (ix2 p j)) (fun j => trep (ix2 p j)) i := by
  unfold waves wave
  show extractStridedSlice S1024x108 ![0, 0] fam _ (ix2 p i) * Ideal.sin (extractStridedSlice S1024x108 ![0, 108] fam _ (ix2 p i) * trep (ix2 p i) + extractStridedSlice S1024x108 ![0, 216] fam _ (ix2 p i)) = _
  rw [slice2_axis1_apply 0 fam _ p i ⟨i.val, by omega⟩ (by simp), slice2_axis1_apply 108 fam _ p i ⟨108 + i.val, by omega⟩ rfl,
    slice2_axis1_apply 216 fam _ p i ⟨216 + i.val, by omega⟩ rfl]

/-- The 36 time columns of a family block against the time block. -/
def timeCols (fam : FVec Ideal S1024x324 .f32) (trep : FVec Ideal S1024x108 .f32) : FVec Ideal S1024x36 .f32 :=
  addf (addf (extractStridedSlice S1024x36 ![0, 0] (waves fam trep) slices_S1024x108_o0_0_S1024x36)
    (extractStridedSlice S1024x36 ![0, 36] (waves fam trep) slices_S1024x108_o0_36_S1024x36))
    (extractStridedSlice S1024x36 ![0, 72] (waves fam trep) slices_S1024x108_o0_72_S1024x36)

theorem timeCols_apply (fam : FVec Ideal S1024x324 .f32) (trep : FVec Ideal S1024x108 .f32) (p : Fin 1024) (q : Fin 36) :
    timeCols fam trep (ix2 p q) = waveSum (fun j => fam (ix2 p j)) (fun j => trep (ix2 p j)) q := by
  unfold timeCols waveSum
  show (extractStridedSlice S1024x36 ![0, 0] (waves fam trep) _ (ix2 p q) + extractStridedSlice S1024x36 ![0, 36] (waves fam trep) _ (ix2 p q)) + extractStridedSlice S1024x36 ![0, 72] (waves fam trep) _ (ix2 p q) = _
  rw [slice2_axis1_apply 0 (waves fam trep) _ p q ⟨q.val, by omega⟩ (by simp), slice2_axis1_apply 36 (waves fam trep) _ p q ⟨36 + q.val, by omega⟩ rfl,
    slice2_axis1_apply 72 (waves fam trep) _ p q ⟨72 + q.val, by omega⟩ rfl, waves_apply, waves_apply, waves_apply]

/-- An embedding: 64 columns of an embedding block from column `o`, then 36 time columns. -/
theorem embCols_apply (o : Nat) (ho : o + 64 ≤ 128) (e : FVec Ideal S1024x128 .f32) (hs : S1024x128.Slices ![0, o] S1024x64)
    (te : FVec Ideal S1024x36 .f32) (p : Fin 1024) (j : Fin 100) :
    concatenate S1024x100 1 [⟨S1024x64, extractStridedSlice S1024x64 ![0, o] e hs⟩, ⟨S1024x36, te⟩] concatenates_S1024x64_S1024x36_S1024x100_d1 (ix2 p j)
      = emb100 (fun j' => e (ix2 p ⟨o + j'.val, by omega⟩)) (fun q => te (ix2 p q)) j := by
  unfold emb100
  by_cases hj : j.val < 64
  · rw [dif_pos hj, concat2_cols_left _ _ _ p j ⟨j.val, hj⟩ rfl, slice2_axis1_apply o e hs p ⟨j.val, hj⟩ ⟨o + j.val, by omega⟩ rfl]
  · rw [dif_neg hj, concat2_cols_right _ _ _ p j ⟨j.val - 64, by have := j.isLt; omega⟩ (by show 64 + (j.val - 64) = j.val; omega)]

/-- The body's payload at row p: the row score over the body's intermediate blocks. -/
theorem pay1_apply (v1 v3 : FVec Ideal S1024x128 .f32) (v5 : FVec Ideal S1024x108 .f32) (v19 v33 v45 v46 : FVec Ideal S1024x36 .f32)
    (v48 : Vec Ideal S1024x324 .f32) (v70 v72 : Vec Ideal S1024x100 .f32) (p : Fin 1024) :
    k0_pay1 v1 v3 v5 v19 v33 v45 v46 v48 v70 v72 (ix2 p (0 : Fin 1))
      = rowScore (emb100 (fun j => v1 (ix2 p ⟨0 + j.val, by omega⟩)) (fun q => v19 (ix2 p q)))
          (emb100 (fun j => v1 (ix2 p ⟨64 + j.val, by omega⟩)) (fun q => v33 (ix2 p q)))
          (emb100 (fun j => v3 (ix2 p ⟨0 + j.val, by omega⟩)) (fun q => addf v45 v46 (ix2 p q)))
          (emb100 (fun j => v3 (ix2 p ⟨64 + j.val, by omega⟩)) (fun q => timeCols v48 v5 (ix2 p q)))
          (fun j => v70 (ix2 p j)) (fun j => v72 (ix2 p j)) := by
  unfold k0_pay1
  dsimp only
  rw [shapeCast_apply _ _ (ix2 p (0 : Fin 1)) (ix1 p) (by
    rw [Shape.rowMajor_val_one, Shape.rowMajor_val_two]; simp)]
  have hR : Shape.Reduces S1024x100 [1] S1024 := reduces_S1024x100_S1024
  refine (Ideal.multiReduction_add_single (a := 1) _ _ hR _ _ (ix1 p)).trans ?_
  unfold rowScore
  refine Finset.sum_congr rfl (fun (j : Fin 100) _ => ?_)
  have hl : hR.lift (ix1 p) j = ix2 p j := by
    funext a
    match a with
    | ⟨0, _⟩ => rfl
    | ⟨1, _⟩ => rfl
  rw [hl]
  show ((concatenate S1024x100 1 [⟨S1024x64, extractStridedSlice S1024x64 ![0, 0] v1 slices_S1024x128_o0_0_S1024x64⟩, ⟨S1024x36, v19⟩] concatenates_S1024x64_S1024x36_S1024x100_d1 (ix2 p j)
        * shapeCast S1024x100 v70 shapeCasts_S1024x100_S1024x100 (ix2 p j))
        * concatenate S1024x100 1 [⟨S1024x64, extractStridedSlice S1024x64 ![0, 64] v3 slices_S1024x128_o0_64_S1024x64⟩, ⟨S1024x36, timeCols (shapeCast S1024x324 v48 shapeCasts_S1024x324_S1024x324) v5⟩] concatenates_S1024x64_S1024x36_S1024x100_d1 (ix2 p j)
      + (concatenate S1024x100 1 [⟨S1024x64, extractStridedSlice S1024x64 ![0, 0] v3 slices_S1024x128_o0_0_S1024x64⟩, ⟨S1024x36, addf v45 v46⟩] concatenates_S1024x64_S1024x36_S1024x100_d1 (ix2 p j)
        * shapeCast S1024x100 v72 shapeCasts_S1024x100_S1024x100 (ix2 p j))
        * concatenate S1024x100 1 [⟨S1024x64, extractStridedSlice S1024x64 ![0, 64] v1 slices_S1024x128_o0_64_S1024x64⟩, ⟨S1024x36, v33⟩] concatenates_S1024x64_S1024x36_S1024x100_d1 (ix2 p j))
      * half = _
  rw [shapeCast_self, shapeCast_self, shapeCast_self, embCols_apply 0 (by omega), embCols_apply 64 (by omega), embCols_apply 0 (by omega), embCols_apply 64 (by omega)]

/-- The output block at row p: the row score of row p of the nine input blocks. -/
theorem scoreBlk_apply (x0 x1 : Vec Ideal S1024x128 .f32) (x2 x3 x4 x5 : Vec Ideal S1024x324 .f32) (x6 : Vec Ideal S1024x108 .f32)
    (x7 x8 : Vec Ideal S1024x100 .f32) (p : Fin 1024) :
    scoreBlk x0 x1 x2 x3 x4 x5 x6 x7 x8 (ix2 p (0 : Fin 1))
      = rowOf (fun j => x0 (ix2 p j)) (fun j => x1 (ix2 p j)) (fun j => x2 (ix2 p j)) (fun j => x3 (ix2 p j)) (fun j => x4 (ix2 p j))
          (fun j => x5 (ix2 p j)) (fun j => x6 (ix2 p j)) (fun j => x7 (ix2 p j)) (fun j => x8 (ix2 p j)) := by
  unfold scoreBlk
  rw [View.canon_unit_zero hz]
  simp only [View.ld_unit_zero (S := S1024x128) hz, View.ld_unit_zero (S := S1024x324) hz, View.ld_unit_zero (S := S1024x108) hz,
    View.ld_unit_zero (S := S1024x100) hz]
  rw [pay1_apply]
  have e2 : k0_pay2 x0 = x0 := shapeCast_self _ _
  have e3 : k0_pay3 x1 = x1 := shapeCast_self _ _
  have e4 : k0_pay4 x6 = x6 := shapeCast_self _ _
  have e5 : k0_pay5 x6 x2 = timeCols x2 x6 := by
    unfold k0_pay5 timeCols waves; dsimp only; rw [e4, shapeCast_self]
  have e6 : k0_pay6 x6 x3 = timeCols x3 x6 := by
    unfold k0_pay6 timeCols waves; dsimp only; rw [e4, shapeCast_self]
  have e89 : addf (k0_pay8 x6 x4) (k0_pay9 x6 x4) = timeCols x4 x6 := by
    unfold k0_pay8 k0_pay9 k0_pay7 timeCols waves; dsimp only; rw [e4, shapeCast_self]
  rw [e2, e3, e4, e5, e6, e89]
  unfold rowOf
  simp only [timeCols_apply]

end Cert.KernelIdeal.Hand

end
-- ==== Proof.LibGatherPlanes.lean ====
/-
  A gather of whole planes of a three-axis array along its middle axis, by one index per row of an [M, 1] index
  array, read at an index.

  Operand [K, N, C], indices [M, 1], result [K, M, C]: entry (k, e, j) is the operand at (k, clamp (idx e), j), the index
  word read signed and clamped into [0, N − 1] exactly as for a gather of rows of a matrix (`clampRow`).
-/
import Idealize.ShloMosaic.Lib.ValueIdx
import proofs.«175527_j8306466750925_1_alg».proof.Proof.LibGatherRows

namespace Cert.Lib

open Idealize.ShloMosaic Idealize.ShloMosaic.ValueIdx

variable {K N M C w : Nat} {α : Type}

/-- The dimension numbers of a gather of planes along the middle axis, as a record over given sizes. -/
abbrev planeDims (K N M C : Nat) (wf : GatherDims.WF ⟨3, ![K, N, C]⟩ ⟨2, ![M, 1]⟩ ⟨3, ![K, M, C]⟩ [0, 2] [1] [] [1] [] 1 ![K, 1, C]) :
    GatherDims ⟨3, ![K, N, C]⟩ ⟨2, ![M, 1]⟩ ⟨3, ![K, M, C]⟩ where
  offsetDims := [0, 2]
  collapsedSliceDims := [1]
  operandBatchingDims := []
  startIndicesBatchingDims := []
  startIndexMap := [1]
  indexVectorDim := 1
  sliceSizes := ![K, 1, C]
  wf := wf

theorem planeDims_gather_apply (hN : 0 < N) (wf : GatherDims.WF ⟨3, ![K, N, C]⟩ ⟨2, ![M, 1]⟩ ⟨3, ![K, M, C]⟩ [0, 2] [1] [] [1] [] 1 ![K, 1, C])
    (x : (⟨3, ![K, N, C]⟩ : Shape).Idx → α) (idx : IVec ⟨2, ![M, 1]⟩ w) (k : Fin K) (e : Fin M) (j : Fin C) :
    Host.gather (planeDims K N M C wf) x idx (ix3 k e j) = x (ix3 k (clampRow N hN idx e) j) := by
  unfold Host.gather
  congr 1
  funext a
  refine Fin.ext ?_
  match a with
  | ⟨0, _⟩ =>
    show (planeDims K N M C wf).start (ix3 k e j) idx 0 + (planeDims K N M C wf).batchCoord (ix3 k e j) 0 + (planeDims K N M C wf).offCoord (ix3 k e j) 0 = k.val
    rw [GatherDims.batchCoord_eq_zero _ _ _ List.not_mem_nil]
    unfold GatherDims.start GatherDims.offCoord
    rw [dif_neg (show ¬ (0 : Fin 3) ∈ (planeDims K N M C wf).startIndexMap from (by decide : ¬ (0 : Fin 3) ∈ ([1] : List (Fin 3)))),
      dif_pos (show (0 : Fin 3) ∈ (planeDims K N M C wf).sKept from
        (by decide : (0 : Fin 3) ∈ (List.finRange 3).filter (· ∉ (([1] : List (Fin 3)) ++ []))))]
    simp only [Nat.zero_add, Nat.add_zero]
    rfl
  | ⟨1, _⟩ =>
    show (planeDims K N M C wf).start (ix3 k e j) idx 1 + (planeDims K N M C wf).batchCoord (ix3 k e j) 1 + (planeDims K N M C wf).offCoord (ix3 k e j) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (planeDims K N M C wf).startIndexMap from List.mem_singleton.mpr rfl)]
    have hsi : (planeDims K N M C wf).siIdx (ix3 k e j) ⟨List.idxOf (1 : Fin 3) (planeDims K N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨2, _⟩ =>
    show (planeDims K N M C wf).start (ix3 k e j) idx 2 + (planeDims K N M C wf).batchCoord (ix3 k e j) 2 + (planeDims K N M C wf).offCoord (ix3 k e j) 2 = j.val
    rw [GatherDims.batchCoord_eq_zero _ _ _ List.not_mem_nil]
    unfold GatherDims.start GatherDims.offCoord
    rw [dif_neg (show ¬ (2 : Fin 3) ∈ (planeDims K N M C wf).startIndexMap from (by decide : ¬ (2 : Fin 3) ∈ ([1] : List (Fin 3)))),
      dif_pos (show (2 : Fin 3) ∈ (planeDims K N M C wf).sKept from
        (by decide : (2 : Fin 3) ∈ (List.finRange 3).filter (· ∉ (([1] : List (Fin 3)) ++ []))))]
    simp only [Nat.zero_add, Nat.add_zero]
    rfl

/-- The dimension numbers of a gather of planes along the middle axis. -/
structure IsPlaneGather (d : GatherDims ⟨3, ![K, N, C]⟩ ⟨2, ![M, 1]⟩ ⟨3, ![K, M, C]⟩) : Prop where
  od : d.offsetDims = [0, 2]
  cs : d.collapsedSliceDims = [1]
  ob : d.operandBatchingDims = []
  sb : d.startIndicesBatchingDims = []
  sm : d.startIndexMap = [1]
  iv : d.indexVectorDim = 1
  ss : d.sliceSizes = ![K, 1, C]

/-- A gather of planes read at (k, e, j): the operand at (k, the clamped row idx e, j). -/
theorem plane_gather_apply (hN : 0 < N) (d : GatherDims ⟨3, ![K, N, C]⟩ ⟨2, ![M, 1]⟩ ⟨3, ![K, M, C]⟩) (hd : IsPlaneGather d)
    (x : (⟨3, ![K, N, C]⟩ : Shape).Idx → α) (idx : IVec ⟨2, ![M, 1]⟩ w) (k : Fin K) (e : Fin M) (j : Fin C) :
    Host.gather d x idx (ix3 k e j) = x (ix3 k (clampRow N hN idx e) j) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact planeDims_gather_apply hN wf x idx k e j

end Cert.Lib
-- ==== Proof.KernelIdealRows.lean ====
/-
  The nine arrays the region's windows stand on, as functions of the arguments, read at a batch row.

  Before the region the host lines gather, for the subject and for the object index, the row of the two static tables side
  by side (128 columns) and the rows of the six time tables, each [3, N, 36] table's three planes laid side by side as 108
  columns and three such tables side by side as 324; they lay year, month, day out as three runs of 36 equal columns; and
  they gather the relation rows. So at batch row b, column 36·k + q of a 108-wide run is the table at (k, row, q), the
  time run is component k of (year, month, day), and a row's sinusoids and sums are exactly the spec's.
-/
import proofs.«175527_j8306466750925_1_alg».proof.Proof.KernelIdealHost
import proofs.«175527_j8306466750925_1_alg».proof.Proof.KernelIdealPay
import proofs.«175527_j8306466750925_1_alg».proof.Proof.LibGatherPlanes
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Idealize.ShloMosaic.ValueIdx Cert.Lib Cert.Score
open Cert.KernelIdeal Cert.KernelIdeal.Gen

/-! ## The host lines' arrays as functions of the arguments -/

/-- The two static tables side by side, gathered at the index words. -/
def embRows (es eo : FVec Ideal S200000x64 .f32) (idx : IVec S262144x1 32) : FVec Ideal S262144x128 .f32 :=
  Host.gather gather_S200000x128_S262144x1_S262144x128_1_0_n_n_0_1_1128
    (concatenate S200000x128 1 [⟨S200000x64, es⟩, ⟨S200000x64, eo⟩] concatenates_S200000x64_S200000x64_S200000x128_d1) idx

/-- A [3, N, 36] table gathered at the index words, its three planes laid side by side. -/
def planeRows (A : FVec Ideal S3x200000x36 .f32) (idx : IVec S262144x1 32) : FVec Ideal S262144x108 .f32 :=
  shapeCast S262144x108 (transpose S262144x3x36 [1, 0, 2] (Host.gather gather_S3x200000x36_S262144x1_S3x262144x36_02_1_n_n_1_1_3136 A idx)
    transposes_S3x262144x36_S262144x3x36_1_0_2) shapeCasts_S262144x3x36_S262144x108

/-- Amplitudes, frequencies, phases side by side. -/
def famRows (A Fq P : FVec Ideal S3x200000x36 .f32) (idx : IVec S262144x1 32) : FVec Ideal S262144x324 .f32 :=
  concatenate S262144x324 1 [⟨S262144x108, planeRows A idx⟩, ⟨S262144x108, planeRows Fq idx⟩, ⟨S262144x108, planeRows P idx⟩]
    concatenates_S262144x108_S262144x108_S262144x108_S262144x324_d1

/-- Year, month, day as three runs of 36 equal columns. -/
def timeRows (y mth d : FVec Ideal S262144 .f32) : FVec Ideal S262144x108 .f32 :=
  concatenate S262144x108 1 [⟨S262144x36, broadcastInDim S262144x36 ![0, 1] bcast_S262144x1_S262144x36_0_1 (broadcastInDim S262144x1 ![0] bcast_S262144_S262144x1_0 y)⟩, ⟨S262144x36, broadcastInDim S262144x36 ![0, 1] bcast_S262144x1_S262144x36_0_1 (broadcastInDim S262144x1 ![0] bcast_S262144_S262144x1_0 mth)⟩, ⟨S262144x36, broadcastInDim S262144x36 ![0, 1] bcast_S262144x1_S262144x36_0_1 (broadcastInDim S262144x1 ![0] bcast_S262144_S262144x1_0 d)⟩]
    concatenates_S262144x36_S262144x36_S262144x36_S262144x108_d1

/-- A relation table gathered at the index words. -/
def relRows (rf : FVec Ideal S500x100 .f32) (idx : IVec S262144x1 32) : FVec Ideal S262144x100 .f32 :=
  Host.gather gather_S500x100_S262144x1_S262144x100_1_0_n_n_0_1_1100 rf idx

theorem isRow128 : IsRowGather gather_S200000x128_S262144x1_S262144x128_1_0_n_n_0_1_1128 := ⟨rfl, rfl, rfl, rfl, rfl, rfl, rfl⟩
theorem isRow100k : IsRowGather gather_S500x100_S262144x1_S262144x100_1_0_n_n_0_1_1100 := ⟨rfl, rfl, rfl, rfl, rfl, rfl, rfl⟩
theorem isPlanek : IsPlaneGather gather_S3x200000x36_S262144x1_S3x262144x36_02_1_n_n_1_1_3136 := ⟨rfl, rfl, rfl, rfl, rfl, rfl, rfl⟩

/-! ## Read at a batch row -/

theorem embRows_lo (es eo : FVec Ideal S200000x64 .f32) (idx : IVec S262144x1 32) (b : Fin 262144) (j : Fin 128) (j' : Fin 64)
    (hj : j'.val = j.val) : embRows es eo idx (ix2 b j) = es (ix2 (clampRow 200000 (by decide) idx b) j') := by
  unfold embRows
  rw [row_gather_apply (by decide) _ isRow128, concat2_cols_left _ _ _ _ j j' hj]

theorem embRows_hi (es eo : FVec Ideal S200000x64 .f32) (idx : IVec S262144x1 32) (b : Fin 262144) (j : Fin 128) (j' : Fin 64)
    (hj : 64 + j'.val = j.val) : embRows es eo idx (ix2 b j) = eo (ix2 (clampRow 200000 (by decide) idx b) j') := by
  unfold embRows
  rw [row_gather_apply (by decide) _ isRow128, concat2_cols_right _ _ _ _ j j' hj]

theorem planeRows_apply (A : FVec Ideal S3x200000x36 .f32) (idx : IVec S262144x1 32) (b : Fin 262144) (k : Fin 3) (q : Fin 36)
    (i : Fin 108) (hi : i.val = 36 * k.val + q.val) :
    planeRows A idx (ix2 b i) = A (ix3 k (clampRow 200000 (by decide) idx b) q) := by
  unfold planeRows
  rw [shapeCast_apply _ _ (ix2 b i) (ix3 b k q) (by
      rw [Shape.rowMajor_val_three, Shape.rowMajor_val_two]
      show (b.val * 3 + k.val) * 36 + q.val = b.val * 108 + i.val
      omega),
    transpose_apply _ _ _ (ix3 b k q) (ix3 k b q) (fun a => by
      match a with
      | ⟨0, _⟩ => rfl
      | ⟨1, _⟩ => rfl
      | ⟨2, _⟩ => rfl),
    plane_gather_apply (by decide) _ isPlanek]

theorem famRows_amp (A Fq P : FVec Ideal S3x200000x36 .f32) (idx : IVec S262144x1 32) (b : Fin 262144) (i : Fin 108) (j : Fin 324)
    (hj : i.val = j.val) : famRows A Fq P idx (ix2 b j) = planeRows A idx (ix2 b i) := by
  unfold famRows
  exact concat3_cols_fst _ _ _ _ b j i hj

theorem famRows_frq (A Fq P : FVec Ideal S3x200000x36 .f32) (idx : IVec S262144x1 32) (b : Fin 262144) (i : Fin 108) (j : Fin 324)
    (hj : 108 + i.val = j.val) : famRows A Fq P idx (ix2 b j) = planeRows Fq idx (ix2 b i) := by
  unfold famRows
  exact concat3_cols_snd _ _ _ _ b j i hj

theorem famRows_phi (A Fq P : FVec Ideal S3x200000x36 .f32) (idx : IVec S262144x1 32) (b : Fin 262144) (i : Fin 108) (j : Fin 324)
    (hj : 108 + 108 + i.val = j.val) : famRows A Fq P idx (ix2 b j) = planeRows P idx (ix2 b i) := by
  unfold famRows
  exact concat3_cols_thd _ _ _ _ b j i hj

/-- A vector stood up as a column and repeated over 36 columns, at (b, q): the vector at b. -/
theorem spread_apply (y : FVec Ideal S262144 .f32) (b : Fin 262144) (q : Fin 36) :
    broadcastInDim S262144x36 ![0, 1] bcast_S262144x1_S262144x36_0_1 (broadcastInDim S262144x1 ![0] bcast_S262144_S262144x1_0 y) (ix2 b q) = y (ix1 b) := by
  rw [broadcastInDim_apply _ _ _ (ix2 b q) (ix2 b (0 : Fin 1)) (fun a => by
      match a with
      | ⟨0, _⟩ => rfl
      | ⟨1, _⟩ => rfl),
    broadcastInDim_apply _ _ _ (ix2 b (0 : Fin 1)) (ix1 b) (fun a => by
      match a with
      | ⟨0, _⟩ => rfl)]

theorem timeRows_apply (y mth d : FVec Ideal S262144 .f32) (b : Fin 262144) (k : Fin 3) (q : Fin 36) (i : Fin 108)
    (hi : i.val = 36 * k.val + q.val) : timeRows y mth d (ix2 b i) = tk y mth d b k := by
  unfold timeRows
  match k with
  | ⟨0, _⟩ =>
    rw [concat3_cols_fst _ _ _ _ b i q (by simpa using hi.symm), spread_apply]; rfl
  | ⟨1, _⟩ =>
    rw [concat3_cols_snd _ _ _ _ b i q (by have := hi; simp at this; omega), spread_apply]; rfl
  | ⟨2, _⟩ =>
    rw [concat3_cols_thd _ _ _ _ b i q (by have := hi; simp at this; omega), spread_apply]; rfl

/-- Sinusoid 36·k + q of batch row b. -/
theorem wave_rows (A Fq P : FVec Ideal S3x200000x36 .f32) (idx : IVec S262144x1 32) (y mth d : FVec Ideal S262144 .f32) (b : Fin 262144)
    (k : Fin 3) (q : Fin 36) (i : Fin 108) (hi : i.val = 36 * k.val + q.val) :
    wave (fun j => famRows A Fq P idx (ix2 b j)) (fun j => timeRows y mth d (ix2 b j)) i
      = A (ix3 k (clampRow 200000 (by decide) idx b) q) * Ideal.sin (Fq (ix3 k (clampRow 200000 (by decide) idx b) q) * tk y mth d b k
          + P (ix3 k (clampRow 200000 (by decide) idx b) q)) := by
  unfold wave
  dsimp only
  rw [famRows_amp A Fq P idx b i _ rfl, famRows_frq A Fq P idx b i _ rfl, famRows_phi A Fq P idx b i _ (by show 108 + 108 + i.val = 216 + i.val; omega),
    planeRows_apply A idx b k q i hi, planeRows_apply Fq idx b k q i hi, planeRows_apply P idx b k q i hi, timeRows_apply y mth d b k q i hi]

/-- Time column q of batch row b: the spec's. -/
theorem waveSum_rows (A Fq P : FVec Ideal S3x200000x36 .f32) (idx : IVec S262144x1 32) (y mth d : FVec Ideal S262144 .f32) (b : Fin 262144)
    (q : Fin 36) :
    waveSum (fun j => famRows A Fq P idx (ix2 b j)) (fun j => timeRows y mth d (ix2 b j)) q
      = tEmbAt A Fq P (clampRow 200000 (by decide) idx b) (tk y mth d b) q := by
  unfold waveSum tEmbAt tEmb
  rw [wave_rows A Fq P idx y mth d b 0 q ⟨q.val, by omega⟩ (by simp), wave_rows A Fq P idx y mth d b 1 q ⟨36 + q.val, by omega⟩ (by simp),
    wave_rows A Fq P idx y mth d b 2 q ⟨72 + q.val, by omega⟩ (by simp)]

/-- The row score of batch row b of the nine arrays: the spec's score. -/
theorem rowOf_rows (iS iR iO : IVec S262144x1 32) (y mth d : FVec Ideal S262144 .f32) (es eo : FVec Ideal S200000x64 .f32)
    (aS fS pS aO fO pO : FVec Ideal S3x200000x36 .f32) (rf ri : FVec Ideal S500x100 .f32) (b : Fin 262144) :
    rowOf (fun j => embRows es eo iS (ix2 b j)) (fun j => embRows es eo iO (ix2 b j))
        (fun j => famRows aS fS pS iS (ix2 b j)) (fun j => famRows aO fO pO iS (ix2 b j))
        (fun j => famRows aS fS pS iO (ix2 b j)) (fun j => famRows aO fO pO iO (ix2 b j))
        (fun j => timeRows y mth d (ix2 b j)) (fun j => relRows rf iR (ix2 b j)) (fun j => relRows ri iR (ix2 b j))
      = score iS iR iO y mth d es eo aS fS pS aO fO pO rf ri b := by
  unfold rowOf score embAt relRows
  have hlo : ∀ idx : IVec S262144x1 32, (fun j : Fin 64 => embRows es eo idx (ix2 b ⟨0 + j.val, by omega⟩))
      = fun j => es (ix2 (clampRow 200000 (by decide) idx b) j) :=
    fun idx => funext fun j => embRows_lo es eo idx b _ j (by simp)
  have hhi : ∀ idx : IVec S262144x1 32, (fun j : Fin 64 => embRows es eo idx (ix2 b ⟨64 + j.val, by omega⟩))
      = fun j => eo (ix2 (clampRow 200000 (by decide) idx b) j) :=
    fun idx => funext fun j => embRows_hi es eo idx b _ j rfl
  have hw : ∀ (A Fq P : FVec Ideal S3x200000x36 .f32) (idx : IVec S262144x1 32),
      waveSum (fun j => famRows A Fq P idx (ix2 b j)) (fun j => timeRows y mth d (ix2 b j))
        = tEmbAt A Fq P (clampRow 200000 (by decide) idx b) (tk y mth d b) :=
    fun A Fq P idx => funext fun q => waveSum_rows A Fq P idx y mth d b q
  simp only [hlo, hhi, hw, row_gather_apply (by decide) _ isRow100k]

end Cert.KernelIdeal.Hand

end
-- ==== Proof.KernelIdealValue.lean ====
/-
  The score array after the kernel program's run, at the exact instance.

  The region's output is cut into 256 blocks of 1024 rows; grid point t writes back rows 1024·t … 1024·t + 1023, each
  row's value the row score of that same row of the nine input arrays, so the blocks tile the [B, 1] output and the whole
  column is one function of the nine arrays. The nine arrays are the host lines' gathers and layouts of the arguments, and
  the reshape after the region turns the column into the flat result: the spec's score array.
-/
import proofs.«175527_j8306466750925_1_alg».proof.Proof.KernelIdealRun
import proofs.«175527_j8306466750925_1_alg».proof.Proof.KernelIdealRows

set_option maxRecDepth 16384
set_option maxHeartbeats 4000000

noncomputable section

namespace Cert.KernelIdeal.Hand

open Idealize.ShloMosaic Idealize.ShloMosaic.TcCoe Idealize.SL.Sem Idealize.ShloMosaic.StableHlo
open Idealize.ShloMosaic.ValueIdx Cert.Lib Cert.Score
open Idealize.ShloMosaic.Pipeline (Dat Cfg Window)
open Cert.KernelIdeal Cert.KernelIdeal.Gen

variable (m : (ℓ : Loc nD τ sig) → Buf (Elt Ideal) ℓ) (ρ : Dev nD → PrngReg)

/-! ## Blocks are runs of 1024 rows -/

/-- Every window's block index at grid point t is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Row p of block t is row 1024·t + p of the array. -/
def rowAt (t : Fin cfg0.N) (p : Fin 1024) : Fin 262144 :=
  ⟨t.val * 1024 + p.val, by have ht : t.val < 256 := lt_of_lt_of_eq t.isLt N_0; have := p.isLt; omega⟩

theorem blkRead0 (c : Dev nD) (t : Fin cfg0.N) (p : Fin 1024) (j : Fin 128) :
    iblk m c 0 t (ix2 p j) = V m c main_v7 (ix2 (rowAt t p) j) := by
  have hf := idx_facts t
  unfold iblk
  show V m c main_v7 (((cfg0.win 0).blk t).view.emb (ix2 p j)) = _
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 128 + 1 * j.val = j.val; omega

theorem blkRead1 (c : Dev nD) (t : Fin cfg0.N) (p : Fin 1024) (j : Fin 128) :
    iblk m c 1 t (ix2 p j) = V m c main_v14 (ix2 (rowAt t p) j) := by
  have hf := idx_facts t
  unfold iblk
  show V m c main_v14 (((cfg0.win 1).blk t).view.emb (ix2 p j)) = _
  refine congrArg _ (funext fun a => Fin.ext ?_)
  match a with
  | ⟨0, _⟩ => show win0_1.index t (0 : Fin 2) * 1024 + 1 * p.val = t.val * 1024 + p.val; omega
  | ⟨1, _⟩ => show win0_1.index t (1 : Fin 2) * 128 + 1 * j.val = j.val; omega

theorem blkRead2 (c : Dev nD) (t : Fin cfg0.N) (p : Fin 1024) (j : Fin 324) :
    iblk m c 2 t (ix2 p j) = V m c main_v42 (ix2 (rowAt t p) j) := by
  have hf := idx_facts t
  unfold iblk
  show V m c main_v42 (((cfg0.win 2).blk t).view.emb (ix2 p j)) = _
  refine congrArg _ (funext fun a => Fin.ext ?_)
  match a with
  | ⟨0, _⟩ => show win0_2.index t (0 : Fin 2) * 1024 + 1 * p.val = t.val * 1024 + p.val; omega
  | ⟨1, _⟩ => show win0_2.index t (1 : Fin 2) * 324 + 1 * j.val = j.val; omega

theorem blkRead3 (c : Dev nD) (t : Fin cfg0.N) (p : Fin 1024) (j : Fin 324) :
    iblk m c 3 t (ix2 p j) = V m c main_v70 (ix2 (rowAt t p) j) := by
  have hf := idx_facts t
  unfold iblk
  show V m c main_v70 (((cfg0.win 3).blk t).view.emb (ix2 p j)) = _
  refine congrArg _ (funext fun a => Fin.ext ?_)
  match a with
  | ⟨0, _⟩ => show win0_3.index t (0 : Fin 2) * 1024 + 1 * p.val = t.val * 1024 + p.val; omega
  | ⟨1, _⟩ => show win0_3.index t (1 : Fin 2) * 324 + 1 * j.val = j.val; omega

theorem blkRead4 (c : Dev nD) (t : Fin cfg0.N) (p : Fin 1024) (j : Fin 324) :
    iblk m c 4 t (ix2 p j) = V m c main_v98 (ix2 (rowAt t p) j) := by
  have hf := idx_facts t
  unfold iblk
  show V m c main_v98 (((cfg0.win 4).blk t).view.emb (ix2 p j)) = _
  refine congrArg _ (funext fun a => Fin.ext ?_)
  match a with
  | ⟨0, _⟩ => show win0_4.index t (0 : Fin 2) * 1024 + 1 * p.val = t.val * 1024 + p.val; omega
  | ⟨1, _⟩ => show win0_4.index t (1 : Fin 2) * 324 + 1 * j.val = j.val; omega

theorem blkRead5 (c : Dev nD) (t : Fin cfg0.N) (p : Fin 1024) (j : Fin 324) :
    iblk m c 5 t (ix2 p j) = V m c main_v126 (ix2 (rowAt t p) j) := by
  have hf := idx_facts t
  unfold iblk
  show V m c main_v126 (((cfg0.win 5).blk t).view.emb (ix2 p j)) = _
  refine congrArg _ (funext fun a => Fin.ext ?_)
  match a with
  | ⟨0, _⟩ => show win0_5.index t (0 : Fin 2) * 1024 + 1 * p.val = t.val * 1024 + p.val; omega
  | ⟨1, _⟩ => show win0_5.index t (1 : Fin 2) * 324 + 1 * j.val = j.val; omega

theorem blkRead6 (c : Dev nD) (t : Fin cfg0.N) (p : Fin 1024) (j : Fin 108) :
    iblk m c 6 t (ix2 p j) = V m c main_v133 (ix2 (rowAt t p) j) := by
  have hf := idx_facts t
  unfold iblk
  show V m c main_v133 (((cfg0.win 6).blk t).view.emb (ix2 p j)) = _
  refine congrArg _ (funext fun a => Fin.ext ?_)
  match a with
  | ⟨0, _⟩ => show win0_6.index t (0 : Fin 2) * 1024 + 1 * p.val = t.val * 1024 + p.val; omega
  | ⟨1, _⟩ => show win0_6.index t (1 : Fin 2) * 108 + 1 * j.val = j.val; omega

theorem blkRead7 (c : Dev nD) (t : Fin cfg0.N) (p : Fin 1024) (j : Fin 100) :
    iblk m c 7 t (ix2 p j) = V m c main_v140 (ix2 (rowAt t p) j) := by
  have hf := idx_facts t
  unfold iblk
  show V m c main_v140 (((cfg0.win 7).blk t).view.emb (ix2 p j)) = _
  refine congrArg _ (funext fun a => Fin.ext ?_)
  match a with
  | ⟨0, _⟩ => show win0_7.index t (0 : Fin 2) * 1024 + 1 * p.val = t.val * 1024 + p.val; omega
  | ⟨1, _⟩ => show win0_7.index t (1 : Fin 2) * 100 + 1 * j.val = j.val; omega

theorem blkRead8 (c : Dev nD) (t : Fin cfg0.N) (p : Fin 1024) (j : Fin 100) :
    iblk m c 8 t (ix2 p j) = V m c main_v147 (ix2 (rowAt t p) j) := by
  have hf := idx_facts t
  unfold iblk
  show V m c main_v147 (((cfg0.win 8).blk t).view.emb (ix2 p j)) = _
  refine congrArg _ (funext fun a => Fin.ext ?_)
  match a with
  | ⟨0, _⟩ => show win0_8.index t (0 : Fin 2) * 1024 + 1 * p.val = t.val * 1024 + p.val; omega
  | ⟨1, _⟩ => show win0_8.index t (1 : Fin 2) * 100 + 1 * j.val = j.val; omega

/-! ## The score column -/

/-- The score column over whole arrays: row b from row b of the nine arrays. -/
def scoreCol (X0 X1 : FVec Ideal S262144x128 .f32) (X2 X3 X4 X5 : FVec Ideal S262144x324 .f32) (X6 : FVec Ideal S262144x108 .f32)
    (X7 X8 : FVec Ideal S262144x100 .f32) : FVec Ideal S262144x1 .f32 :=
  fun i => rowOf (fun j => X0 (ix2 (i 0) j)) (fun j => X1 (ix2 (i 0) j)) (fun j => X2 (ix2 (i 0) j)) (fun j => X3 (ix2 (i 0) j))
    (fun j => X4 (ix2 (i 0) j)) (fun j => X5 (ix2 (i 0) j)) (fun j => X6 (ix2 (i 0) j)) (fun j => X7 (ix2 (i 0) j)) (fun j => X8 (ix2 (i 0) j))

/-- What grid point t writes back is block t of the score column. -/
theorem flushed_eq (c : Dev nD) (t : Fin cfg0.N) :
    (dats m 0 c).flushed 9 t = ((cfg0.win 9).blk t).view.read (Elt Ideal) (scoreCol (V m c main_v7) (V m c main_v14) (V m c main_v42) (V m c main_v70) (V m c main_v98) (V m c main_v126) (V m c main_v133) (V m c main_v140) (V m c main_v147)) := by
  show (cfg0.win 9).cut (grid0.coords t) ((dats m 0 c).after 9 t) = _
  rw [after_out]
  have hf := idx_facts t
  funext y
  obtain ⟨p, u, rfl⟩ : ∃ (p : Fin 1024) (u : Fin 1), y = ix2 p u := ⟨y 0, y 1, eq_ix2 y⟩
  have hu : u = 0 := Subsingleton.elim _ _
  subst hu
  show scoreBlk (iblk m c 0 t) (iblk m c 1 t) (iblk m c 2 t) (iblk m c 3 t) (iblk m c 4 t) (iblk m c 5 t) (iblk m c 6 t) (iblk m c 7 t) (iblk m c 8 t) (ix2 p (0 : Fin 1))
    = scoreCol (V m c main_v7) (V m c main_v14) (V m c main_v42) (V m c main_v70) (V m c main_v98) (V m c main_v126) (V m c main_v133) (V m c main_v140) (V m c main_v147) (((cfg0.win 9).blk t).view.emb (ix2 p (0 : Fin 1)))
  rw [scoreBlk_apply]
  unfold scoreCol
  have hrow : (((cfg0.win 9).blk t).view.emb (ix2 p (0 : Fin 1))) 0 = rowAt t p :=
    Fin.ext (by show win0_9.index t (0 : Fin 2) * 1024 + 1 * p.val = t.val * 1024 + p.val; omega)
  rw [hrow]
  simp only [blkRead0, blkRead1, blkRead2, blkRead3, blkRead4, blkRead5, blkRead6, blkRead7, blkRead8]

/-- An index of the output array is in point t's block iff its row is in the block's run of 1024. -/
theorem mem_blk9 (t : Fin cfg0.N) (i : S262144x1.Idx) :
    i ∈ ((cfg0.win 9).blk t).view.set ↔ ∀ a : Fin 2, win0_9.index t a * S1024x1.size a ≤ (i a).val ∧ (i a).val < win0_9.index t a * S1024x1.size a + S1024x1.size a := by
  show i ∈ ((View.whole main_v148).slice (win0_9.rect t)).set ↔ _
  rw [View.set_slice_whole, Rect.mem_set_unit]
  exact Iff.rfl

/-- Every row is in the block of the point that is its quotient by 1024. -/
theorem cover9 (i : S262144x1.Idx) : ∃ t : Fin cfg0.N, (cfg0.win 9).flush t = true ∧ i ∈ ((cfg0.win 9).blk t).view.set := by
  have hi0 : (i 0).val < 262144 := (i 0).isLt
  have hi1 : (i 1).val < 1 := (i 1).isLt
  let t : Fin cfg0.N := ⟨(i 0).val / 1024, by rw [show cfg0.N = 256 from N_0]; omega⟩
  have hf := idx_facts t
  refine ⟨t, flush0_9 t, ?_⟩
  rw [mem_blk9]
  intro a
  match a with
  | ⟨0, _⟩ =>
    show win0_9.index t (0 : Fin 2) * 1024 ≤ (i 0).val ∧ (i 0).val < win0_9.index t (0 : Fin 2) * 1024 + 1024
    have : t.val = (i 0).val / 1024 := rfl
    omega
  | ⟨1, _⟩ =>
    show win0_9.index t (1 : Fin 2) * 1 ≤ (i 1).val ∧ (i 1).val < win0_9.index t (1 : Fin 2) * 1 + 1
    omega

/-- The output array after the run: the score column. -/
theorem final9 (c : Dev nD) : (dats m 0 c).arrAt 9 cfg0.N = scoreCol (V m c main_v7) (V m c main_v14) (V m c main_v42) (V m c main_v70) (V m c main_v98) (V m c main_v126) (V m c main_v133) (V m c main_v140) (V m c main_v147) :=
  (dats m 0 c).arrAt_eq_of_cover 9 _ (fun t _ => flushed_eq m c t) cover9

end Cert.KernelIdeal.Hand

end
-- ==== Proof.KernelIdealEntry.lean ====
/-
  The nine arrays the region's windows stand on, as the host lines before the region compute them from the arguments:
  each is read off the 180 host lines as the composed term of the argument arrays (the gathers at the normalised index
  words, the planes laid side by side, the time runs), none of which the lines in between overwrite.
-/
import proofs.«175527_j8306466750925_1_alg».proof.Proof.KernelIdealHost
import proofs.«175527_j8306466750925_1_alg».proof.Proof.KernelIdealRows
import Idealize.ShloMosaic.Lib.StableHlo.Run

set_option maxRecDepth 16384
set_option maxHeartbeats 4000000

noncomputable section

namespace Cert.KernelIdeal.Hand

open Idealize.ShloMosaic Idealize.ShloMosaic.TcCoe Idealize.SL.Sem Idealize.ShloMosaic.StableHlo
open Idealize.ShloMosaic.ValueIdx Cert.Lib Cert.Score
open Cert.KernelIdeal Cert.KernelIdeal.Gen

variable (m : (ℓ : Loc nD τ sig) → Buf (Elt Ideal) ℓ)

/-! ## The nine arrays as the region finds them -/

theorem entry0 (c : Dev nD) : (V m c main_v7 : S262144x128.Idx → EReal) = embRows (m ((c : Thread nD τ).loc main_arg6)) (m ((c : Thread nD τ).loc main_arg7)) (normIdx 200000#32 (m ((c : Thread nD τ).loc main_arg0))) := by
  dsimp only [V, V0]
  simp only [hostOps0, List.flatten_cons, List.flatten_nil, List.append_nil]
  after_results_simp
  try dsimp only [Matrix.cons_val]
  try after_results_simp
  rfl

theorem entry1 (c : Dev nD) : (V m c main_v14 : S262144x128.Idx → EReal) = embRows (m ((c : Thread nD τ).loc main_arg6)) (m ((c : Thread nD τ).loc main_arg7)) (normIdx 200000#32 (m ((c : Thread nD τ).loc main_arg2))) := by
  dsimp only [V, V0]
  simp only [hostOps0, List.flatten_cons, List.flatten_nil, List.append_nil]
  after_results_simp
  try dsimp only [Matrix.cons_val]
  try after_results_simp
  rfl

theorem entry2 (c : Dev nD) : (V m c main_v42 : S262144x324.Idx → EReal) = famRows (m ((c : Thread nD τ).loc main_arg8)) (m ((c : Thread nD τ).loc main_arg9)) (m ((c : Thread nD τ).loc main_arg10)) (normIdx 200000#32 (m ((c : Thread nD τ).loc main_arg0))) := by
  dsimp only [V, V0]
  simp only [hostOps0, List.flatten_cons, List.flatten_nil, List.append_nil]
  after_results_simp
  try dsimp only [Matrix.cons_val]
  try after_results_simp
  rfl

theorem entry3 (c : Dev nD) : (V m c main_v70 : S262144x324.Idx → EReal) = famRows (m ((c : Thread nD τ).loc main_arg11)) (m ((c : Thread nD τ).loc main_arg12)) (m ((c : Thread nD τ).loc main_arg13)) (normIdx 200000#32 (m ((c : Thread nD τ).loc main_arg0))) := by
  dsimp only [V, V0]
  simp only [hostOps0, List.flatten_cons, List.flatten_nil, List.append_nil]
  after_results_simp
  try dsimp only [Matrix.cons_val]
  try after_results_simp
  rfl

theorem entry4 (c : Dev nD) : (V m c main_v98 : S262144x324.Idx → EReal) = famRows (m ((c : Thread nD τ).loc main_arg8)) (m ((c : Thread nD τ).loc main_arg9)) (m ((c : Thread nD τ).loc main_arg10)) (normIdx 200000#32 (m ((c : Thread nD τ).loc main_arg2))) := by
  dsimp only [V, V0]
  simp only [hostOps0, List.flatten_cons, List.flatten_nil, List.append_nil]
  after_results_simp
  try dsimp only [Matrix.cons_val]
  try after_results_simp
  rfl

theorem entry5 (c : Dev nD) : (V m c main_v126 : S262144x324.Idx → EReal) = famRows (m ((c : Thread nD τ).loc main_arg11)) (m ((c : Thread nD τ).loc main_arg12)) (m ((c : Thread nD τ).loc main_arg13)) (normIdx 200000#32 (m ((c : Thread nD τ).loc main_arg2))) := by
  dsimp only [V, V0]
  simp only [hostOps0, List.flatten_cons, List.flatten_nil, List.append_nil]
  after_results_simp
  try dsimp only [Matrix.cons_val]
  try after_results_simp
  rfl

theorem entry6 (c : Dev nD) : (V m c main_v133 : S262144x108.Idx → EReal) = timeRows (m ((c : Thread nD τ).loc main_arg3)) (m ((c : Thread nD τ).loc main_arg4)) (m ((c : Thread nD τ).loc main_arg5)) := by
  dsimp only [V, V0]
  simp only [hostOps0, List.flatten_cons, List.flatten_nil, List.append_nil]
  after_results_simp
  try dsimp only [Matrix.cons_val]
  try after_results_simp
  rfl

theorem entry7 (c : Dev nD) : (V m c main_v140 : S262144x100.Idx → EReal) = relRows (m ((c : Thread nD τ).loc main_arg14)) (normIdx 500#32 (m ((c : Thread nD τ).loc main_arg1))) := by
  dsimp only [V, V0]
  simp only [hostOps0, List.flatten_cons, List.flatten_nil, List.append_nil]
  after_results_simp
  try dsimp only [Matrix.cons_val]
  try after_results_simp
  rfl

theorem entry8 (c : Dev nD) : (V m c main_v147 : S262144x100.Idx → EReal) = relRows (m ((c : Thread nD τ).loc main_arg15)) (normIdx 500#32 (m ((c : Thread nD τ).loc main_arg1))) := by
  dsimp only [V, V0]
  simp only [hostOps0, List.flatten_cons, List.flatten_nil, List.append_nil]
  after_results_simp
  try dsimp only [Matrix.cons_val]
  try after_results_simp
  rfl

end Cert.KernelIdeal.Hand

end
-- ==== Proof.KernelIdealResult.lean ====
/-
  The kernel program's result at the exact instance: the spec's score array.

  The reshape after the region reads the [B, 1] score column as the flat result, entry b the column's row b; the column is
  the row score of the nine arrays the host lines built from the arguments, which is the spec's score of batch row b.
-/
import proofs.«175527_j8306466750925_1_alg».proof.Proof.KernelIdealValue
import proofs.«175527_j8306466750925_1_alg».proof.Proof.KernelIdealEntry

set_option maxRecDepth 16384
set_option maxHeartbeats 4000000

noncomputable section

namespace Cert.KernelIdeal.Hand

open Idealize.ShloMosaic Idealize.ShloMosaic.TcCoe Idealize.SL.Sem Idealize.ShloMosaic.StableHlo
open Idealize.ShloMosaic.ValueIdx Cert.Lib Cert.Score
open Idealize.ShloMosaic.Pipeline (Dat Cfg Window)
open Cert.KernelIdeal Cert.KernelIdeal.Gen

variable (m : (ℓ : Loc nD τ sig) → Buf (Elt Ideal) ℓ) (ρ : Dev nD → PrngReg)

/-- The flat result after the reshape: the score array of the arguments. -/
theorem result_eq (c : Dev nD) :
    (Pipeline.afterTail₀ cfgs (dats m) 0 (V0 m) [hostOps1] c main_v149 : S262144.Idx → EReal)
      = scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  unfold Pipeline.afterTail₀
  show StableHlo.after hostOps1 _ (Proc.devRef .tc main_v149) = _
  after_results
  have hw := (Pipeline.withArrays_arr spec0 launch0.win.arr_inj c (V0 m c) (fun w => (dats m 0 c).arrAt w (cfgs 0).N) 9).trans (final9 m c)
  funext i
  obtain ⟨b, rfl⟩ : ∃ b : Fin 262144, i = ix1 b := ⟨i 0, eq_ix1 i⟩
  refine (shapeCast_apply _ _ (ix1 b) (ix2 b (0 : Fin 1)) (by
    rw [Shape.rowMajor_val_two, Shape.rowMajor_val_one]; simp)).trans ?_
  refine (congrFun hw (ix2 b (0 : Fin 1))).trans ?_
  unfold scoreCol scores
  rw [entry0, entry1, entry2, entry3, entry4, entry5, entry6, entry7, entry8]
  exact rowOf_rows _ _ _ _ _ _ _ _ _ _ _ _ _ _ _ _ b

/-- The kernel program at the exact instance runs, ends with the score array in its result and its arguments as launched. -/
theorem kernel_run : θ_run defs (onTc (τ := τ) (main (F := Ideal))) ⟨m, fun _ => 0, ρ⟩ (fun r => ∀ c : Dev nD,
      r.2.mem ((c.tc : Thread nD τ).loc main_v149) = scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ hr c => ⟨((hr c).2 main_v149 (Pipeline.mem_restRefs_of main_v149 (by decide) (by decide))).trans (result_eq m c),
      ((hr c).2 main_arg0 (Pipeline.mem_restRefs_of main_arg0 (by decide) (by decide))).trans (W_main_arg0 m (dats m) c),
      ((hr c).2 main_arg1 (Pipeline.mem_restRefs_of main_arg1 (by decide) (by decide))).trans (W_main_arg1 m (dats m) c),
      ((hr c).2 main_arg2 (Pipeline.mem_restRefs_of main_arg2 (by decide) (by decide))).trans (W_main_arg2 m (dats m) c),
      ((hr c).2 main_arg3 (Pipeline.mem_restRefs_of main_arg3 (by decide) (by decide))).trans (W_main_arg3 m (dats m) c),
      ((hr c).2 main_arg4 (Pipeline.mem_restRefs_of main_arg4 (by decide) (by decide))).trans (W_main_arg4 m (dats m) c),
      ((hr c).2 main_arg5 (Pipeline.mem_restRefs_of main_arg5 (by decide) (by decide))).trans (W_main_arg5 m (dats m) c),
      ((hr c).2 main_arg6 (Pipeline.mem_restRefs_of main_arg6 (by decide) (by decide))).trans (W_main_arg6 m (dats m) c),
      ((hr c).2 main_arg7 (Pipeline.mem_restRefs_of main_arg7 (by decide) (by decide))).trans (W_main_arg7 m (dats m) c),
      ((hr c).2 main_arg8 (Pipeline.mem_restRefs_of main_arg8 (by decide) (by decide))).trans (W_main_arg8 m (dats m) c),
      ((hr c).2 main_arg9 (Pipeline.mem_restRefs_of main_arg9 (by decide) (by decide))).trans (W_main_arg9 m (dats m) c),
      ((hr c).2 main_arg10 (Pipeline.mem_restRefs_of main_arg10 (by decide) (by decide))).trans (W_main_arg10 m (dats m) c),
      ((hr c).2 main_arg11 (Pipeline.mem_restRefs_of main_arg11 (by decide) (by decide))).trans (W_main_arg11 m (dats m) c),
      ((hr c).2 main_arg12 (Pipeline.mem_restRefs_of main_arg12 (by decide) (by decide))).trans (W_main_arg12 m (dats m) c),
      ((hr c).2 main_arg13 (Pipeline.mem_restRefs_of main_arg13 (by decide) (by decide))).trans (W_main_arg13 m (dats m) c),
      ((hr c).2 main_arg14 (Pipeline.mem_restRefs_of main_arg14 (by decide) (by decide))).trans (W_main_arg14 m (dats m) c),
      ((hr c).2 main_arg15 (Pipeline.mem_restRefs_of main_arg15 (by decide) (by decide))).trans (W_main_arg15 m (dats m) c)⟩) (run_main m ρ)

end Cert.KernelIdeal.Hand

end
-- ==== Proof.RefValue.lean ====
/-
  The reference's result, read at a batch row: the score of that row.

  The reference gathers each table at the normalised index words, forms each entity's 100 columns as the 64 gathered
  static columns followed by the sum over the three time components of amplitude · sin(frequency · time + phase), and sums
  the halved sum of the two triple products over the 100 columns. A gather of rows (or of planes of a three-axis table)
  read at an entry is the table at the clamped row; a sum over the leading axis of three is three terms after the zero
  it starts from.
-/
import proofs.«175527_j8306466750925_1_alg».proof.Proof.Gen.ReferenceIdeal.Run
import proofs.«175527_j8306466750925_1_alg».proof.Proof.ScoreSpec
import proofs.«175527_j8306466750925_1_alg».proof.Proof.LibGatherPlanes
import proofs.«175527_j8306466750925_1_alg».proof.Proof.LibConcatCols
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Idealize.ShloMosaic Idealize.ShloMosaic.ValueIdx Cert.Lib Cert.Score

/-- (year, month, day) stacked as three rows and repeated over the 36 time columns. -/
def timeCube (y mth d : FVec Ideal S262144 .f32) : FVec Ideal S3x262144x36 .f32 :=
  broadcastInDim S3x262144x36 ![0, 1, 2] bcast_S3x262144x1_S3x262144x36_0_1_2
    (broadcastInDim S3x262144x1 ![0, 1] bcast_S3x262144_S3x262144x1_0_1 (concatenate S3x262144 0 [⟨S1x262144, (broadcastInDim S1x262144 ![1] bcast_S262144_S1x262144_1 y)⟩, ⟨S1x262144, (broadcastInDim S1x262144 ![1] bcast_S262144_S1x262144_1 mth)⟩, ⟨S1x262144, (broadcastInDim S1x262144 ![1] bcast_S262144_S1x262144_1 d)⟩] concatenates_S1x262144_S1x262144_S1x262144_S3x262144_d0))

/-- An entity's 100 columns as the reference forms them. -/
def refEmb (E : FVec Ideal S200000x64 .f32) (A Fq P : FVec Ideal S3x200000x36 .f32) (idx : IVec S262144x1 32)
    (T : FVec Ideal S3x262144x36 .f32) : FVec Ideal S262144x100 .f32 :=
  concatenate S262144x100 1 [⟨S262144x64, (Host.gather gather_S200000x64_S262144x1_S262144x64_1_0_n_n_0_1_164 E idx)⟩, ⟨S262144x36, (Host.reduceAdd (mulf (Host.gather gather_S3x200000x36_S262144x1_S3x262144x36_02_1_n_n_1_1_3136 A idx) (Host.sin (addf (mulf (Host.gather gather_S3x200000x36_S262144x1_S3x262144x36_02_1_n_n_1_1_3136 Fq idx) T) (Host.gather gather_S3x200000x36_S262144x1_S3x262144x36_02_1_n_n_1_1_3136 P idx)))) (constant S_ .f32 0x00000000#32) reducesTo_S3x262144x36_S262144x36_d0 h_S_)⟩] concatenates_S262144x64_S262144x36_S262144x100_d1

theorem isRow64 : IsRowGather gather_S200000x64_S262144x1_S262144x64_1_0_n_n_0_1_164 := ⟨rfl, rfl, rfl, rfl, rfl, rfl, rfl⟩
theorem isRow100 : IsRowGather gather_S500x100_S262144x1_S262144x100_1_0_n_n_0_1_1100 := ⟨rfl, rfl, rfl, rfl, rfl, rfl, rfl⟩
theorem isPlane : IsPlaneGather gather_S3x200000x36_S262144x1_S3x262144x36_02_1_n_n_1_1_3136 := ⟨rfl, rfl, rfl, rfl, rfl, rfl, rfl⟩

/-- The stacked times at (k, b, q): component k of row b's (year, month, day). -/
theorem timeCube_apply (y mth d : FVec Ideal S262144 .f32) (k : Fin 3) (b : Fin 262144) (q : Fin 36) :
    timeCube y mth d (ix3 k b q) = tk y mth d b k := by
  unfold timeCube
  rw [broadcastInDim_apply _ _ _ (ix3 k b q) (ix3 k b (0 : Fin 1)) (fun a => by
      match a with
      | ⟨0, _⟩ => rfl
      | ⟨1, _⟩ => rfl
      | ⟨2, _⟩ => rfl),
    broadcastInDim_apply _ _ _ (ix3 k b (0 : Fin 1)) (ix2 k b) (fun a => by
      match a with
      | ⟨0, _⟩ => rfl
      | ⟨1, _⟩ => rfl),
    concat3_rows_one]
  match k with
  | ⟨0, _⟩ =>
    show broadcastInDim S1x262144 ![1] bcast_S262144_S1x262144_1 y (ix2 (0 : Fin 1) b) = y (ix1 b)
    exact broadcastInDim_apply _ _ _ (ix2 (0 : Fin 1) b) (ix1 b) (fun a => by
      match a with
      | ⟨0, _⟩ => rfl)
  | ⟨1, _⟩ =>
    show broadcastInDim S1x262144 ![1] bcast_S262144_S1x262144_1 mth (ix2 (0 : Fin 1) b) = mth (ix1 b)
    exact broadcastInDim_apply _ _ _ (ix2 (0 : Fin 1) b) (ix1 b) (fun a => by
      match a with
      | ⟨0, _⟩ => rfl)
  | ⟨2, _⟩ =>
    show broadcastInDim S1x262144 ![1] bcast_S262144_S1x262144_1 d (ix2 (0 : Fin 1) b) = d (ix1 b)
    exact broadcastInDim_apply _ _ _ (ix2 (0 : Fin 1) b) (ix1 b) (fun a => by
      match a with
      | ⟨0, _⟩ => rfl)

/-- A sum over the leading axis of three, started from the zero word, at (b, q): three terms. -/
theorem reduce3_apply (X : FVec Ideal S3x262144x36 .f32) (b : Fin 262144) (q : Fin 36) :
    Host.reduceAdd X (constant S_ .f32 0x00000000#32) reducesTo_S3x262144x36_S262144x36_d0 h_S_ (ix2 b q)
      = (X (ix3 0 b q) + X (ix3 1 b q)) + X (ix3 2 b q) := by
  unfold Host.reduceAdd
  have hR : Shape.Reduces S3x262144x36 [0] S262144x36 := by decide
  refine (Ideal.hostReduceAdd_single (a := 0) reducesTo_S3x262144x36_S262144x36_d0 hR _ _ (ix2 b q)).trans ?_
  have hl : ∀ k : Fin 3, hR.lift (ix2 b q) k = ix3 k b q := fun k => by
    funext a
    match a with
    | ⟨0, _⟩ => rfl
    | ⟨1, _⟩ => rfl
    | ⟨2, _⟩ => rfl
  have hs : (∑ k : Fin (S3x262144x36.size 0), X (hR.lift (ix2 b q) k)) = X (ix3 0 b q) + X (ix3 1 b q) + X (ix3 2 b q) := by
    have h := Fin.sum_univ_three (fun k : Fin 3 => X (hR.lift (ix2 b q) k))
    rw [hl, hl, hl] at h
    exact h
  have h0 : constant (F := Ideal) S_ .f32 0x00000000#32 (Shape.Idx.first h_S_) = (0 : EReal) := Ideal.ofBits_zero_f32
  rw [h0]
  exact (zero_add _).trans hs

/-- The reference's sum over the three time components at (b, q): the time column of the spec. -/
theorem timeSum_apply (A Fq P : FVec Ideal S3x200000x36 .f32) (idx : IVec S262144x1 32) (y mth d : FVec Ideal S262144 .f32)
    (b : Fin 262144) (q : Fin 36) :
    Host.reduceAdd (mulf (Host.gather gather_S3x200000x36_S262144x1_S3x262144x36_02_1_n_n_1_1_3136 A idx) (Host.sin (addf (mulf (Host.gather gather_S3x200000x36_S262144x1_S3x262144x36_02_1_n_n_1_1_3136 Fq idx) (timeCube y mth d)) (Host.gather gather_S3x200000x36_S262144x1_S3x262144x36_02_1_n_n_1_1_3136 P idx)))) (constant S_ .f32 0x00000000#32) reducesTo_S3x262144x36_S262144x36_d0 h_S_ (ix2 b q)
      = tEmbAt A Fq P (clampRow 200000 (by decide) idx b) (tk y mth d b) q := by
  have hterm : ∀ k : Fin 3, mulf (Host.gather gather_S3x200000x36_S262144x1_S3x262144x36_02_1_n_n_1_1_3136 A idx) (Host.sin (addf (mulf (Host.gather gather_S3x200000x36_S262144x1_S3x262144x36_02_1_n_n_1_1_3136 Fq idx) (timeCube y mth d)) (Host.gather gather_S3x200000x36_S262144x1_S3x262144x36_02_1_n_n_1_1_3136 P idx))) (ix3 k b q)
      = A (ix3 k (clampRow 200000 (by decide) idx b) q) * Ideal.sin (Fq (ix3 k (clampRow 200000 (by decide) idx b) q) * tk y mth d b k + P (ix3 k (clampRow 200000 (by decide) idx b) q)) := fun k => by
    show Host.gather _ A idx (ix3 k b q) * Ideal.sin (Host.gather _ Fq idx (ix3 k b q) * timeCube y mth d (ix3 k b q) + Host.gather _ P idx (ix3 k b q)) = _
    rw [plane_gather_apply (by decide) _ isPlane, plane_gather_apply (by decide) _ isPlane, plane_gather_apply (by decide) _ isPlane, timeCube_apply]
  rw [reduce3_apply, hterm, hterm, hterm]
  rfl

/-- An entity's columns as the reference forms them, at (b, j): the spec's embedding at the clamped row. -/
theorem refEmb_apply (E : FVec Ideal S200000x64 .f32) (A Fq P : FVec Ideal S3x200000x36 .f32) (idx : IVec S262144x1 32)
    (y mth d : FVec Ideal S262144 .f32) (b : Fin 262144) (j : Fin 100) :
    refEmb E A Fq P idx (timeCube y mth d) (ix2 b j) = embAt E A Fq P (clampRow 200000 (by decide) idx b) (tk y mth d b) j := by
  unfold refEmb embAt emb100
  by_cases hj : j.val < 64
  · rw [dif_pos hj, concat2_cols_left _ _ _ b j ⟨j.val, hj⟩ rfl, row_gather_apply (by decide) _ isRow64]
  · rw [dif_neg hj, concat2_cols_right _ _ _ b j ⟨j.val - 64, by have := j.isLt; omega⟩ (by show 64 + (j.val - 64) = j.val; omega)]
    exact timeSum_apply A Fq P idx y mth d b _

theorem bcastHalf_apply (b : Fin 262144) (j : Fin 100) :
    broadcastInDim (α := Ideal .f32) S262144x100 ![] bcast_S_S262144x100 (constant S_ .f32 0x3F000000#32) (ix2 b j) = half :=
  broadcastInDim_apply _ _ _ (ix2 b j) ix0 (fun a => a.elim0)

/-- The reference's result as the program composes it from its arguments. -/
def refTerm (s r o : IVec S262144 32) (y mth d : FVec Ideal S262144 .f32) (es eo : FVec Ideal S200000x64 .f32)
    (aS fS pS aO fO pO : FVec Ideal S3x200000x36 .f32) (rf ri : FVec Ideal S500x100 .f32) : FVec Ideal S262144 .f32 :=
  Host.reduceAdd (mulf (addf
      (mulf (mulf (refEmb es aS fS pS (normIdx 200000#32 s) (timeCube y mth d)) (Host.gather gather_S500x100_S262144x1_S262144x100_1_0_n_n_0_1_1100 rf (normIdx 500#32 r))) (refEmb eo aO fO pO (normIdx 200000#32 o) (timeCube y mth d)))
      (mulf (mulf (refEmb es aS fS pS (normIdx 200000#32 o) (timeCube y mth d)) (Host.gather gather_S500x100_S262144x1_S262144x100_1_0_n_n_0_1_1100 ri (normIdx 500#32 r))) (refEmb eo aO fO pO (normIdx 200000#32 s) (timeCube y mth d))))
    (broadcastInDim S262144x100 ![] bcast_S_S262144x100 (constant S_ .f32 0x3F000000#32))) (constant S_ .f32 0x00000000#32) reducesTo_S262144x100_S262144_d1 h_S_

/-- The reference's result is the score array. -/
theorem refTerm_eq (s r o : IVec S262144 32) (y mth d : FVec Ideal S262144 .f32) (es eo : FVec Ideal S200000x64 .f32)
    (aS fS pS aO fO pO : FVec Ideal S3x200000x36 .f32) (rf ri : FVec Ideal S500x100 .f32) :
    refTerm s r o y mth d es eo aS fS pS aO fO pO rf ri = scores s r o y mth d es eo aS fS pS aO fO pO rf ri := by
  funext i
  obtain ⟨b, rfl⟩ : ∃ b : Fin 262144, i = ix1 b := ⟨i 0, eq_ix1 i⟩
  unfold refTerm Host.reduceAdd
  have hR : Shape.Reduces S262144x100 [1] S262144 := by decide
  refine (Ideal.hostReduceAdd_single (a := 1) reducesTo_S262144x100_S262144_d1 hR _ _ (ix1 b)).trans ?_
  have h0 : constant (F := Ideal) S_ .f32 0x00000000#32 (Shape.Idx.first h_S_) = (0 : EReal) := Ideal.ofBits_zero_f32
  rw [h0]
  refine (zero_add _).trans ?_
  unfold scores score rowScore
  refine Finset.sum_congr rfl (fun (j : Fin 100) _ => ?_)
  have hl : hR.lift (ix1 b) j = ix2 b j := by
    funext a
    match a with
    | ⟨0, _⟩ => rfl
    | ⟨1, _⟩ => rfl
  rw [hl]
  show ((refEmb es aS fS pS (normIdx 200000#32 s) (timeCube y mth d) (ix2 b j) * Host.gather gather_S500x100_S262144x1_S262144x100_1_0_n_n_0_1_1100 rf (normIdx 500#32 r) (ix2 b j)) * refEmb eo aO fO pO (normIdx 200000#32 o) (timeCube y mth d) (ix2 b j)
      + (refEmb es aS fS pS (normIdx 200000#32 o) (timeCube y mth d) (ix2 b j) * Host.gather gather_S500x100_S262144x1_S262144x100_1_0_n_n_0_1_1100 ri (normIdx 500#32 r) (ix2 b j)) * refEmb eo aO fO pO (normIdx 200000#32 s) (timeCube y mth d) (ix2 b j))
      * broadcastInDim (α := Ideal .f32) S262144x100 ![] bcast_S_S262144x100 (constant S_ .f32 0x3F000000#32) (ix2 b j) = _
  rw [refEmb_apply, refEmb_apply, refEmb_apply, refEmb_apply, row_gather_apply (by decide) _ isRow100, row_gather_apply (by decide) _ isRow100, bcastHalf_apply]

/-- The run's term (the generated run states the result over the launch memory) is `refTerm` of the arguments. -/
theorem runTerm_eq (V0 : Idealize.ShloMosaic.Valuation τ sig (Elt Ideal)) :
    Host.reduceAdd (mulf (addf (Cert.ReferenceIdeal.Value.res_main_v153 V0) (Cert.ReferenceIdeal.Value.res_main_v162 V0)) (broadcastInDim S262144x100 ![] bcast_S_S262144x100 (constant S_ .f32 0x3F000000#32))) (constant S_ .f32 0x00000000#32) reducesTo_S262144x100_S262144_d1 h_S_
      = refTerm (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) := by
  unfold Cert.ReferenceIdeal.Value.res_main_v153 Cert.ReferenceIdeal.Value.res_main_v162 Cert.ReferenceIdeal.Value.res_main_v4
  rfl

end Cert.ReferenceIdeal.RefValue

end
-- ==== Proof.lean ====
/-
  The kernel program computes the DE-SimplE score of each of 262144 (subject, relation, object, year, month, day) rows;
  the reference computes the same score with plain array operations. Over the extended reals the two agree exactly:

  * both wrap a negative index word by the table's height and gather the clamped row, so they read the same table rows;
  * the kernel lays the gathered amplitude, frequency and phase planes side by side and slices them apart again, the
    reference keeps them as a leading axis of three: column 36·k + q of the kernel's run is entry (k, q) of the reference's;
  * the kernel adds the three sinusoids left to right, the reference sums them from zero: the same sum, addition of
    extended reals being associative with zero neutral (no finiteness is needed anywhere);
  * both sum the halved sum of the two triple products over the 100 columns.

  The three frames: each kernel-side program is host lines, one region over a grid of 256 blocks of 1024 rows, one
  reshape; the region's body reads nine input blocks and overwrites its output block, so the run terminates, faults
  nowhere and leaves the sixteen arguments as launched (no host line writes one). The reference is host lines only.
  The idealization rewrote nothing, so there is nothing to preserve.
-/
import proofs.«175527_j8306466750925_1_alg».proof.Defs
import proofs.«175527_j8306466750925_1_alg».proof.Proof.KernelRun
import proofs.«175527_j8306466750925_1_alg».proof.Proof.KernelIdealResult
import proofs.«175527_j8306466750925_1_alg».proof.Proof.RefValue
import proofs.«175527_j8306466750925_1_alg».proof.Proof.Gen.Pre_finite_inputs

set_option maxRecDepth 16384

noncomputable section

namespace Cert.Proof

open Idealize.ShloMosaic Idealize.ShloMosaic.TcCoe Idealize.SL.Sem Cert.Score

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the score array of the (agreeing) arguments in their results. -/
theorem algebraic : Cert.algebraic_KernelIdeal_ReferenceIdeal := by
  intro m ρ m' ρ' _ hagree
  refine ⟨fun c => scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.runTerm_eq, Cert.ReferenceIdeal.RefValue.refTerm_eq]
  obtain ⟨h0, h1, h2, h3, h4, h5, h6, h7, h8, h9, h10, h11, h12, h13, h14, h15⟩ := hagree c
  show scores (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) = _
  rw [h0, h1, h2, h3, h4, h5, h6, h7, h8, h9, h10, h11, h12, h13, h14, h15]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
